-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x1x2048 : Shape := ⟨3, ![4, 1, 2048]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg8 : FVec F S1024x1024 .f32) (main_arg9 : FVec F S1024 .f32) (main_arg10 : FVec F S1024x1024 .f32) (main_arg11 : FVec F S1024 .f32) (main_v33 : IVec S_ 1) : IVec S_ 1 :=
  let main_v34 : FVec F S1024x1024 .f32 := Host.absf main_arg8
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg10
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg11
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S4x2048x1024 .f32) (main_arg1 : FVec F S4x2048x1024 .f32) (main_arg2 : FVec F S4x2048x1024 .f32) (main_arg3 : IVec S4x1x2048 32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_arg8 main_arg9 main_arg10 main_arg11 main_v13 main_v16
-- ==== Kernel.lean ====
abbrev S4x2048x1024 : Shape := ⟨3, ![4, 2048, 1024]⟩
abbrev S4x1x2048 : Shape := ⟨3, ![4, 1, 2048]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S1x512x1024 : Shape := ⟨3, ![1, 512, 1024]⟩
abbrev S1x2048x1024 : Shape := ⟨3, ![1, 2048, 1024]⟩
abbrev S1x1x2048 : Shape := ⟨3, ![1, 1, 2048]⟩
abbrev S512x1024 : Shape := ⟨2, ![512, 1024]⟩
abbrev S2048x1024 : Shape := ⟨2, ![2048, 1024]⟩
abbrev S1x2048 : Shape := ⟨2, ![1, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 25
  | .vmem => 32
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x1x2048, .i32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S8192x1024, .f32⟩
  | .hbm, ⟨13, _⟩ => ⟨S8192x1024, .f32⟩
  | .hbm, ⟨14, _⟩ => ⟨S4x2048x1024, .f32⟩
  | .hbm, ⟨15, _⟩ => ⟨S8192x1024, .f32⟩
  | .hbm, ⟨16, _⟩ => ⟨S8192x1024, .f32⟩
  | .hbm, ⟨17, _⟩ => ⟨S4x2048x1024, .f32⟩
  | .hbm, ⟨18, _⟩ => ⟨S8192x1024, .f32⟩
  | .hbm, ⟨19, _⟩ => ⟨S8192x1024, .f32⟩
  | .hbm, ⟨20, _⟩ => ⟨S4x2048x1024, .f32⟩
  | .hbm, ⟨21, _⟩ => ⟨S4x2048x1024, .f32⟩
  | .hbm, ⟨22, _⟩ => ⟨S8192x1024, .f32⟩
  | .hbm, ⟨23, _⟩ => ⟨S8192x1024, .f32⟩
  | .hbm, ⟨24, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024, .f32⟩
  | .local _ .vmem, ⟨16, _⟩ => ⟨S1024x1024, .f32⟩
  | .local _ .vmem, ⟨17, _⟩ => ⟨S1024x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x2048x1024, .f32⟩
  | .local _ .vmem, ⟨21, _⟩ => ⟨S1x2048x1024, .f32⟩
  | .local _ .vmem, ⟨22, _⟩ => ⟨S1x1x2048, .i32⟩
  | .local _ .vmem, ⟨23, _⟩ => ⟨S1x1x2048, .i32⟩
  | .local _ .vmem, ⟨24, _⟩ => ⟨S1x512x1024, .f32⟩
  | .local _ .vmem, ⟨25, _⟩ => ⟨S1x512x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | .local _ .vmem, ⟨29, _⟩ => ⟨S1024, .f32⟩
  | .local _ .vmem, ⟨30, _⟩ => ⟨S1024x1024, .f32⟩
  | .local _ .vmem, ⟨31, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![4, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x2048x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 1 → Memref sig .tc .vmem S1x2048x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]

abbrev stage3_3 : Fin 2 → Memref sig .tc .vmem S1x1x2048 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S8192x1024_S4x2048x1024 : S8192x1024.ShapeCasts S4x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  slices_S512x1024_o0_0_S512x64 : S512x1024.Slices ![0, 0] S512x64
  slices_S2048x1024_o0_0_S2048x64 : S2048x1024.Slices ![0, 0] S2048x64
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  slices_S512x1024_o0_64_S512x64 : S512x1024.Slices ![0, 64] S512x64
  slices_S2048x1024_o0_64_S2048x64 : S2048x1024.Slices ![0, 64] S2048x64
  slices_S512x1024_o0_128_S512x64 : S512x1024.Slices ![0, 128] S512x64
  slices_S2048x1024_o0_128_S2048x64 : S2048x1024.Slices ![0, 128] S2048x64
  slices_S512x1024_o0_192_S512x64 : S512x1024.Slices ![0, 192] S512x64
  slices_S2048x1024_o0_192_S2048x64 : S2048x1024.Slices ![0, 192] S2048x64
  slices_S512x1024_o0_256_S512x64 : S512x1024.Slices ![0, 256] S512x64
  slices_S2048x1024_o0_256_S2048x64 : S2048x1024.Slices ![0, 256] S2048x64
  slices_S512x1024_o0_320_S512x64 : S512x1024.Slices ![0, 320] S512x64
  slices_S2048x1024_o0_320_S2048x64 : S2048x1024.Slices ![0, 320] S2048x64
  slices_S512x1024_o0_384_S512x64 : S512x1024.Slices ![0, 384] S512x64
  slices_S2048x1024_o0_384_S2048x64 : S2048x1024.Slices ![0, 384] S2048x64
  slices_S512x1024_o0_448_S512x64 : S512x1024.Slices ![0, 448] S512x64
  slices_S2048x1024_o0_448_S2048x64 : S2048x1024.Slices ![0, 448] S2048x64
  slices_S512x1024_o0_512_S512x64 : S512x1024.Slices ![0, 512] S512x64
  slices_S2048x1024_o0_512_S2048x64 : S2048x1024.Slices ![0, 512] S2048x64
  slices_S512x1024_o0_576_S512x64 : S512x1024.Slices ![0, 576] S512x64
  slices_S2048x1024_o0_576_S2048x64 : S2048x1024.Slices ![0, 576] S2048x64
  slices_S512x1024_o0_640_S512x64 : S512x1024.Slices ![0, 640] S512x64
  slices_S2048x1024_o0_640_S2048x64 : S2048x1024.Slices ![0, 640] S2048x64
  slices_S512x1024_o0_704_S512x64 : S512x1024.Slices ![0, 704] S512x64
  slices_S2048x1024_o0_704_S2048x64 : S2048x1024.Slices ![0, 704] S2048x64
  slices_S512x1024_o0_768_S512x64 : S512x1024.Slices ![0, 768] S512x64
  slices_S2048x1024_o0_768_S2048x64 : S2048x1024.Slices ![0, 768] S2048x64
  slices_S512x1024_o0_832_S512x64 : S512x1024.Slices ![0, 832] S512x64
  slices_S2048x1024_o0_832_S2048x64 : S2048x1024.Slices ![0, 832] S2048x64
  slices_S512x1024_o0_896_S512x64 : S512x1024.Slices ![0, 896] S512x64
  slices_S2048x1024_o0_896_S2048x64 : S2048x1024.Slices ![0, 896] S2048x64
  slices_S512x1024_o0_960_S512x64 : S512x1024.Slices ![0, 960] S512x64
  slices_S2048x1024_o0_960_S2048x64 : S2048x1024.Slices ![0, 960] S2048x64
  concatenates_S512x64_S512x64_S512x64_S512x64_S512x64_S512x64_S512x64_S512x64_S512x64_S512x64_S512x64_S512x64_S512x64_S512x64_S512x64_S512x64_S512x1024_d1 : Shape.Concatenates [S512x64, S512x64, S512x64, S512x64, S512x64, S512x64, S512x64, S512x64, S512x64, S512x64, S512x64, S512x64, S512x64, S512x64, S512x64, S512x64] S512x1024 1
  shapeCasts_S512x1024_S1x512x1024 : S512x1024.ShapeCasts S1x512x1024
  dot_S1024x1024_S1024x1024_S1024x1024_1_1_0_0_n_n_wf : DotDims.WF S1024x1024 S1024x1024 S1024x1024 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .f32 = 32 ∨ (Rect.block (s := S8192x1024) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .f32 = 32 ∨ (Rect.block (s := S8192x1024) S1024x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x1024.size a ≤ S4x2048x1024.size a
  hwx3_0 : ∀ i : grid3.Coords, EltTy.bits .f32 = 32 ∨ (Rect.block (s := S4x2048x1024) S1x512x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2048x1024.size a ≤ S4x2048x1024.size a
  hwx3_1 : ∀ i : grid3.Coords, EltTy.bits .f32 = 32 ∨ (Rect.block (s := S4x2048x1024) S1x2048x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2048x1024.size a ≤ S4x2048x1024.size a
  hwx3_2 : ∀ i : grid3.Coords, EltTy.bits .f32 = 32 ∨ (Rect.block (s := S4x2048x1024) S1x2048x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x2048.size a ≤ S4x1x2048.size a
  hwx3_3 : ∀ i : grid3.Coords, EltTy.bits .i32 = 32 ∨ (Rect.block (s := S4x1x2048) S1x1x2048.size (cc3_transform_3 i) (hinb3_3 i)).WholeWords (EltTy.packing .i32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x512x1024.size a ≤ S4x2048x1024.size a
  hwx3_4 : ∀ i : grid3.Coords, EltTy.bits .f32 = 32 ∨ (Rect.block (s := S4x2048x1024) S1x512x1024.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x1024.size a
  hwx4_0 : ∀ i : grid4.Coords, EltTy.bits .f32 = 32 ∨ (Rect.block (s := S8192x1024) S1024x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1024.size a ≤ S1024.size a
  hwx4_2 : ∀ i : grid4.Coords, EltTy.bits .f32 = 32 ∨ (Rect.block (s := S1024) S1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S8192x1024.size a
  hwx4_3 : ∀ i : grid4.Coords, EltTy.bits .f32 = 32 ∨ (Rect.block (s := S8192x1024) S1024x1024.size (cc4_transform_3 i) (hinb4_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v2) S1x512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S1x2048x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v8) S1x2048x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S1x1x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v9) S1x512x1024.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v10) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v11) S1024x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S4x2048x1024 : Shape := ⟨3, ![4, 2048, 1024]⟩
abbrev S4x1x2048 : Shape := ⟨3, ![4, 1, 2048]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x1x1x2048 : Shape := ⟨4, ![4, 1, 1, 2048]⟩
abbrev S4x16x2048 : Shape := ⟨3, ![4, 16, 2048]⟩
abbrev S4x16x2048x1 : Shape := ⟨4, ![4, 16, 2048, 1]⟩

abbrev nBuf : Space → Nat
  | .hbm => 64
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x1x2048, .i32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S4x2048x1024, .f32⟩
  | .hbm, ⟨13, _⟩ => ⟨S1x1x1024, .f32⟩
  | .hbm, ⟨14, _⟩ => ⟨S4x2048x1024, .f32⟩
  | .hbm, ⟨15, _⟩ => ⟨S4x2048x1024, .f32⟩
  | .hbm, ⟨16, _⟩ => ⟨S4x2048x16x64, .f32⟩
  | .hbm, ⟨17, _⟩ => ⟨S4x16x2048x64, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S4x2048x16x64, .f32⟩
  | .hbm, ⟨23, _⟩ => ⟨S4x16x2048x64, .f32⟩
  | .hbm, ⟨24, _⟩ => ⟨S4x2048x1024, .f32⟩
  | .hbm, ⟨25, _⟩ => ⟨S1x1x1024, .f32⟩
  | .hbm, ⟨26, _⟩ => ⟨S4x2048x1024, .f32⟩
  | .hbm, ⟨27, _⟩ => ⟨S4x2048x1024, .f32⟩
  | .hbm, ⟨28, _⟩ => ⟨S4x2048x16x64, .f32⟩
  | .hbm, ⟨29, _⟩ => ⟨S4x16x2048x64, .f32⟩
  | .hbm, ⟨30, _⟩ => ⟨S4x16x2048x2048, .f32⟩
  | .hbm, ⟨31, _⟩ => ⟨S_, .f32⟩
  | .hbm, ⟨32, _⟩ => ⟨S_, .f32⟩
  | .hbm, ⟨33, _⟩ => ⟨S4x16x2048x2048, .f32⟩
  | .hbm, ⟨34, _⟩ => ⟨S4x16x2048x2048, .f32⟩
  | .hbm, ⟨35, _⟩ => ⟨S4x1x1x2048, .i32⟩
  | .hbm, ⟨36, _⟩ => ⟨S_, .i32⟩
  | .hbm, ⟨37, _⟩ => ⟨S4x1x1x2048, .i32⟩
  | .hbm, ⟨38, _⟩ => ⟨S4x1x1x2048, .i1⟩
  | .hbm, ⟨39, _⟩ => ⟨S_, .f32⟩
  | .hbm, ⟨40, _⟩ => ⟨S4x16x2048x2048, .i1⟩
  | .hbm, ⟨41, _⟩ => ⟨S4x16x2048x2048, .f32⟩
  | .hbm, ⟨42, _⟩ => ⟨S4x16x2048x2048, .f32⟩
  | .hbm, ⟨43, _⟩ => ⟨S_, .f32⟩
  | .hbm, ⟨44, _⟩ => ⟨S4x16x2048, .f32⟩
  | .hbm, ⟨45, _⟩ => ⟨S_, .f32⟩
  | .hbm, ⟨46, _⟩ => ⟨S4x16x2048, .f32⟩
  | .hbm, ⟨47, _⟩ => ⟨S4x16x2048, .f32⟩
  | .hbm, ⟨48, _⟩ => ⟨S4x16x2048x1, .f32⟩
  | .hbm, ⟨49, _⟩ => ⟨S4x16x2048x2048, .f32⟩
  | .hbm, ⟨50, _⟩ => ⟨S4x16x2048x2048, .f32⟩
  | .hbm, ⟨51, _⟩ => ⟨S4x16x2048x2048, .f32⟩
  | .hbm, ⟨52, _⟩ => ⟨S_, .f32⟩
  | .hbm, ⟨53, _⟩ => ⟨S4x16x2048, .f32⟩
  | .hbm, ⟨54, _⟩ => ⟨S4x16x2048x1, .f32⟩
  | .hbm, ⟨55, _⟩ => ⟨S4x16x2048x2048, .f32⟩
  | .hbm, ⟨56, _⟩ => ⟨S4x16x2048x2048, .f32⟩
  | .hbm, ⟨57, _⟩ => ⟨S4x16x2048x64, .f32⟩
  | .hbm, ⟨58, _⟩ => ⟨S4x2048x16x64, .f32⟩
  | .hbm, ⟨59, _⟩ => ⟨S4x2048x1024, .f32⟩
  | .hbm, ⟨60, _⟩ => ⟨S4x2048x1024, .f32⟩
  | .hbm, ⟨61, _⟩ => ⟨S1x1x1024, .f32⟩
  | .hbm, ⟨62, _⟩ => ⟨S4x2048x1024, .f32⟩
  | .hbm, ⟨63, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_v24 : Ref sig .tc := ⟨.hbm, 38, rfl⟩
abbrev main_cst_0 : Ref sig .tc := ⟨.hbm, 39, rfl⟩
abbrev main_call0_v0 : Ref sig .tc := ⟨.hbm, 40, rfl⟩
abbrev main_call0_v1 : Ref sig .tc := ⟨.hbm, 41, rfl⟩
abbrev main_v25 : Ref sig .tc := ⟨.hbm, 42, rfl⟩
abbrev main_cst_1 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  bcast_S4x1x2048_S4x1x1x2048_0_2_3 : S4x1x2048.BroadcastsInDim S4x1x1x2048 (![0, 2, 3] : Fin 3 → Fin S4x1x1x2048.rank)
  bcast_S_S4x1x1x2048 : S_.BroadcastsInDim S4x1x1x2048 (![] : Fin 0 → Fin S4x1x1x2048.rank)
  bcast_S4x1x1x2048_S4x16x2048x2048_0_1_2_3 : S4x1x1x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Spec.lean ====
/-
  The mathematics both programs compute, stated once over the extended reals and over literal shapes.

  Multi-head attention on a batch of 4 sequences of 2048 positions and model width 1024 (16 heads of width 64):
  three linear layers give queries, keys and values; for each head the scores of a query row against every key row
  are the dot products over the head's 64 columns, scaled by 1/32, with the positions whose mask word is zero sent
  to -∞; a row's scores are exponentiated after subtracting their maximum, normalised by their sum, and used as
  weights of the value rows; the heads' results sit side by side in the columns; a last linear layer follows.

  A linear layer is stated on the flattened [8192, 1024] array of rows: entry (r, c) is the dot product of row r of
  the input with row c of the weight matrix, plus the bias at c.
-/
import Idealize.ShloMosaic.PureOps.Ideal
import Idealize.ShloMosaic.PureOps.Ideal.Laws
import Idealize.ShloMosaic.Lib.ValueIdx
import Idealize.ShloMosaic.Lib.Pipeline.Value

noncomputable section

namespace Cert.Mha

open Idealize.ShloMosaic Idealize.ShloMosaic.ValueIdx

/-- [batch, position, column]. -/
abbrev A3 : Shape := ⟨3, ![4, 2048, 1024]⟩
/-- [batch × position, column]: the rows flattened. -/
abbrev A2 : Shape := ⟨2, ![8192, 1024]⟩
/-- A weight matrix [out column, in column]. -/
abbrev Wt : Shape := ⟨2, ![1024, 1024]⟩
/-- A bias vector. -/
abbrev Bs : Shape := ⟨1, ![1024]⟩
/-- The mask [batch, 1, key position]. -/
abbrev Mk : Shape := ⟨3, ![4, 1, 2048]⟩

theorem casts32 : A3.ShapeCasts A2 := by decide
theorem casts23 : A2.ShapeCasts A3 := by decide

/-- The rows of a [4, 2048, 1024] array as one [8192, 1024] array (row-major positions kept). -/
def flat (x : A3.Idx → EReal) : A2.Idx → EReal := shapeCast A2 x casts32
/-- The inverse arrangement. -/
def unflat (y : A2.Idx → EReal) : A3.Idx → EReal := shapeCast A3 y casts23

/-- One linear layer on flattened rows: `y(r, c) = Σₖ x(r, k) · w(c, k) + b(c)`. -/
def linF (x : A2.Idx → EReal) (w : Wt.Idx → EReal) (b : Bs.Idx → EReal) : A2.Idx → EReal :=
  fun j => (∑ k : Fin 1024, x (ix2 (j 0) k) * w (ix2 (j 1) k)) + b (ix1 (j 1))

theorem linF_apply (x : A2.Idx → EReal) (w : Wt.Idx → EReal) (b : Bs.Idx → EReal) (r : Fin 8192) (c : Fin 1024) :
    linF x w b (ix2 r c) = (∑ k : Fin 1024, x (ix2 r k) * w (ix2 c k)) + b (ix1 c) := rfl

/-- Column `e` of head `h`. -/
def col (h : Fin 16) (e : Fin 64) : Fin 1024 := ⟨64 * h.val + e.val, by have := h.isLt; have := e.isLt; omega⟩

/-- The head a column belongs to, and its place inside the head. -/
def headOf (c : Fin 1024) : Fin 16 := ⟨c.val / 64, by have := c.isLt; omega⟩
def inHead (c : Fin 1024) : Fin 64 := ⟨c.val % 64, Nat.mod_lt _ (by decide)⟩

theorem col_headOf_inHead (c : Fin 1024) : col (headOf c) (inHead c) = c :=
  Fin.ext (by show 64 * (c.val / 64) + c.val % 64 = c.val; omega)

/-- The scale 1/32 = 1/√1024 as an extended real. -/
def scale : EReal := ((1 / 32 : ℝ) : EReal)

/-- The score of query row `r` against key row `kk` in head `h` of batch `b`: -∞ where the mask word is zero,
    else the scaled dot product over the head's columns. -/
def score (q k : A3.Idx → EReal) (msk : Mk.Idx → BitVec 32) (b : Fin 4) (h : Fin 16) (r kk : Fin 2048) : EReal :=
  Scalar.select (IntOp.cmpi .eq (msk (ix3 b (0 : Fin 1) kk)) 0#32) (⊥ : EReal)
    ((∑ e : Fin 64, q (ix3 b r (col h e)) * k (ix3 b kk (col h e))) * scale)

/-- A row of scores `s` turned into weights (exponentials of the differences to the row's maximum, divided by their
    sum) and applied to a column of values `v`. -/
def softSum (s v : Fin 2048 → EReal) : EReal :=
  ∑ kk : Fin 2048,
    Ideal.div (Ideal.exp (s kk - (Finset.univ : Finset (Fin 2048)).fold max ⊥ s))
      (∑ k' : Fin 2048, Ideal.exp (s k' - (Finset.univ : Finset (Fin 2048)).fold max ⊥ s)) * v kk

/-- The attention stage: entry (b, r, c) is head `c / 64`'s weighted sum of column `c` of the values. -/
def attnF (q k v : A3.Idx → EReal) (msk : Mk.Idx → BitVec 32) : A3.Idx → EReal :=
  fun j => softSum (fun kk => score q k msk (j 0) (headOf (j 2)) (j 1) kk) (fun kk => v (ix3 (j 0) kk (j 2)))

theorem attnF_apply (q k v : A3.Idx → EReal) (msk : Mk.Idx → BitVec 32) (b : Fin 4) (r : Fin 2048) (c : Fin 1024) :
    attnF q k v msk (ix3 b r c)
      = softSum (fun kk => score q k msk b (headOf c) r kk) (fun kk => v (ix3 b kk c)) := rfl

/-- The whole layer. -/
def mhaF (x0 x1 x2 : A3.Idx → EReal) (msk : Mk.Idx → BitVec 32)
    (wq : Wt.Idx → EReal) (bq : Bs.Idx → EReal) (wk : Wt.Idx → EReal) (bk : Bs.Idx → EReal)
    (wv : Wt.Idx → EReal) (bv : Bs.Idx → EReal) (wo : Wt.Idx → EReal) (bo : Bs.Idx → EReal) : A3.Idx → EReal :=
  unflat (linF (flat (attnF (unflat (linF (flat x0) wq bq)) (unflat (linF (flat x1) wk bk))
    (unflat (linF (flat x2) wv bv)) msk)) wo bo)

/-! ## The float words the two programs spell, as extended reals -/

theorem ofBits_ninf : Ideal.ofBits .f32 0xFF800000#32 = (⊥ : EReal) := by
  simp [Ideal.ofBits, Ideal.ieee]

theorem ofBits_scale : Ideal.ofBits .f32 0x3D000000#32 = scale := by
  unfold scale
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

/-- √1024 = 32, exactly. -/
theorem sqrt_1024 : Ideal.sqrt ((1024 : ℝ) : EReal) = ((32 : ℝ) : EReal) := by
  show (if (1024 : ℝ) < 0 then (⊥ : EReal) else ((Real.sqrt 1024 : ℝ) : EReal)) = _
  rw [if_neg (by norm_num)]
  have h : Real.sqrt 1024 = 32 := by
    rw [show (1024 : ℝ) = 32 ^ 2 by norm_num]; exact Real.sqrt_sq (by norm_num)
  rw [h]

/-- Dividing by 32 is multiplying by 1/32, on every extended real. -/
theorem div_32 (x : EReal) : Ideal.div x ((32 : ℝ) : EReal) = x * scale :=
  Ideal.div_coe (by norm_num) x

/-- The reference's divisor: the square root of the word 1024.0. -/
theorem div_sqrt_1024 (x : EReal) : Ideal.div x (Ideal.sqrt (Ideal.ofBits .f32 0x44800000#32)) = x * scale := by
  rw [ofBits_1024, sqrt_1024, div_32]

/-- Adding the kernel's mask term (-∞ at a masked position, 0 elsewhere) to a scaled score is choosing between -∞
    and the scaled score. -/
theorem add_mask (c : BitVec 1) (x : EReal) :
    x + Scalar.select c (Ideal.ofBits .f32 0xFF800000#32) (Ideal.ofBits .f32 0x00000000#32)
      = Scalar.select c (⊥ : EReal) x := by
  rcases BitVec.eq_zero_or_eq_one c with h | h <;> subst h
  · rw [select_zero, select_zero, Ideal.ofBits_zero_f32, add_zero]
  · rw [select_one, select_one, ofBits_ninf, EReal.add_bot]

end Cert.Mha

end
-- ==== Proof.KernelRun.lean ====
/-
  The idealized kernel's run with its result named, and the result read back through the program.

  The program is five regions among reshapes. Between two regions the buffer contents are known: after a reshape
  the result buffer holds the rearranged operand and every other buffer what it held; after a region each output
  array holds what the region's grid points wrote back and every other buffer what it held. Reading the result
  buffer backwards through these boundaries — the last reshape, the output projection, the attention stage, the
  three input projections, the first reshapes — gives the whole layer as one function of the argument arrays,
  once each region's output array is known as a function of the arrays the region was entered with.
-/
import proofs.«170359_j56186762166614_2_alg».proof.Proof.Gen.KernelIdeal.Frame
import proofs.«170359_j56186762166614_2_alg».proof.Proof.Spec

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents and the argument arrays end as launched. -/
theorem run_named : θ_run defs (onTc (τ := τ) (main (F := F))) ⟨m, fun _ => 0, ρ⟩ (fun r => ∀ c : Dev nD,
      r.2.mem ((c.tc : Thread nD τ).loc main_v12) = W11 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v12 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Run

section ReadBack

open Cert.Mha

variable (m : (ℓ : Loc nD τ sig) → Buf (Elt Ideal) ℓ) (ρ : Dev nD → PrngReg) (c : Dev nD)

/-! ## A buffer that nothing before a boundary writes still holds its launch contents there

Each reshape writes its one result buffer; each region writes its output array and reads its input arrays. A
buffer that is none of these up to a boundary holds there what the launch memory held. -/

theorem keepW1 (a : Ref sig .tc) (h0 : a ≠ main_v0) :
    W1 m ρ c (Proc.devRef .tc a) = m ((c : Thread nD τ).loc a) := by
  show StableHlo.after hostOps0 (W0 m ρ c) (Proc.devRef .tc a) = _
  simp only [StableHlo.after_cons, StableHlo.after_nil]
  rw [StableHlo.reshape_result_ne _ _ _ _ _ _ _ h0]

theorem keepW2 (a : Ref sig .tc) (h0 : a ≠ main_v0) (r0 : ∀ w, Pipeline.arrRef spec0 w ≠ a) :
    W2 m ρ c (Proc.devRef .tc a) = m ((c : Thread nD τ).loc a) :=
  (W2_of_ne m ρ c a r0).trans (keepW1 m ρ c a h0)

theorem keepW3 (a : Ref sig .tc) (h0 : a ≠ main_v0) (r0 : ∀ w, Pipeline.arrRef spec0 w ≠ a)
    (h2 : a ≠ main_v2) (h3 : a ≠ main_v3) :
    W3 m ρ c (Proc.devRef .tc a) = m ((c : Thread nD τ).loc a) := by
  refine Eq.trans ?_ (keepW2 m ρ c a h0 r0)
  show StableHlo.after hostOps1 (W2 m ρ c) (Proc.devRef .tc a) = _
  simp only [StableHlo.after_cons, StableHlo.after_nil]
  rw [StableHlo.reshape_result_ne _ _ _ _ _ _ _ h3, StableHlo.reshape_result_ne _ _ _ _ _ _ _ h2]

theorem keepW4 (a : Ref sig .tc) (h0 : a ≠ main_v0) (r0 : ∀ w, Pipeline.arrRef spec0 w ≠ a)
    (h2 : a ≠ main_v2) (h3 : a ≠ main_v3) (r1 : ∀ w, Pipeline.arrRef spec1 w ≠ a) :
    W4 m ρ c (Proc.devRef .tc a) = m ((c : Thread nD τ).loc a) :=
  (W4_of_ne m ρ c a r1).trans (keepW3 m ρ c a h0 r0 h2 h3)

theorem keepW5 (a : Ref sig .tc) (h0 : a ≠ main_v0) (r0 : ∀ w, Pipeline.arrRef spec0 w ≠ a)
    (h2 : a ≠ main_v2) (h3 : a ≠ main_v3) (r1 : ∀ w, Pipeline.arrRef spec1 w ≠ a)
    (h5 : a ≠ main_v5) (h6 : a ≠ main_v6) :
    W5 m ρ c (Proc.devRef .tc a) = m ((c : Thread nD τ).loc a) := by
  refine Eq.trans ?_ (keepW4 m ρ c a h0 r0 h2 h3 r1)
  show StableHlo.after hostOps2 (W4 m ρ c) (Proc.devRef .tc a) = _
  simp only [StableHlo.after_cons, StableHlo.after_nil]
  rw [StableHlo.reshape_result_ne _ _ _ _ _ _ _ h6, StableHlo.reshape_result_ne _ _ _ _ _ _ _ h5]

theorem keepW6 (a : Ref sig .tc) (h0 : a ≠ main_v0) (r0 : ∀ w, Pipeline.arrRef spec0 w ≠ a)
    (h2 : a ≠ main_v2) (h3 : a ≠ main_v3) (r1 : ∀ w, Pipeline.arrRef spec1 w ≠ a)
    (h5 : a ≠ main_v5) (h6 : a ≠ main_v6) (r2 : ∀ w, Pipeline.arrRef spec2 w ≠ a) :
    W6 m ρ c (Proc.devRef .tc a) = m ((c : Thread nD τ).loc a) :=
  (W6_of_ne m ρ c a r2).trans (keepW5 m ρ c a h0 r0 h2 h3 r1 h5 h6)

theorem keepW7 (a : Ref sig .tc) (h0 : a ≠ main_v0) (r0 : ∀ w, Pipeline.arrRef spec0 w ≠ a)
    (h2 : a ≠ main_v2) (h3 : a ≠ main_v3) (r1 : ∀ w, Pipeline.arrRef spec1 w ≠ a)
    (h5 : a ≠ main_v5) (h6 : a ≠ main_v6) (r2 : ∀ w, Pipeline.arrRef spec2 w ≠ a) (h8 : a ≠ main_v8) :
    W7 m ρ c (Proc.devRef .tc a) = m ((c : Thread nD τ).loc a) := by
  refine Eq.trans ?_ (keepW6 m ρ c a h0 r0 h2 h3 r1 h5 h6 r2)
  show StableHlo.after hostOps3 (W6 m ρ c) (Proc.devRef .tc a) = _
  simp only [StableHlo.after_cons, StableHlo.after_nil]
  rw [StableHlo.reshape_result_ne _ _ _ _ _ _ _ h8]

theorem keepW8 (a : Ref sig .tc) (h0 : a ≠ main_v0) (r0 : ∀ w, Pipeline.arrRef spec0 w ≠ a)
    (h2 : a ≠ main_v2) (h3 : a ≠ main_v3) (r1 : ∀ w, Pipeline.arrRef spec1 w ≠ a)
    (h5 : a ≠ main_v5) (h6 : a ≠ main_v6) (r2 : ∀ w, Pipeline.arrRef spec2 w ≠ a) (h8 : a ≠ main_v8)
    (r3 : ∀ w, Pipeline.arrRef spec3 w ≠ a) :
    W8 m ρ c (Proc.devRef .tc a) = m ((c : Thread nD τ).loc a) :=
  (W8_of_ne m ρ c a r3).trans (keepW7 m ρ c a h0 r0 h2 h3 r1 h5 h6 r2 h8)

theorem keepW9 (a : Ref sig .tc) (h0 : a ≠ main_v0) (r0 : ∀ w, Pipeline.arrRef spec0 w ≠ a)
    (h2 : a ≠ main_v2) (h3 : a ≠ main_v3) (r1 : ∀ w, Pipeline.arrRef spec1 w ≠ a)
    (h5 : a ≠ main_v5) (h6 : a ≠ main_v6) (r2 : ∀ w, Pipeline.arrRef spec2 w ≠ a) (h8 : a ≠ main_v8)
    (r3 : ∀ w, Pipeline.arrRef spec3 w ≠ a) (h10 : a ≠ main_v10) :
    W9 m ρ c (Proc.devRef .tc a) = m ((c : Thread nD τ).loc a) := by
  refine Eq.trans ?_ (keepW8 m ρ c a h0 r0 h2 h3 r1 h5 h6 r2 h8 r3)
  show StableHlo.after hostOps4 (W8 m ρ c) (Proc.devRef .tc a) = _
  simp only [StableHlo.after_cons, StableHlo.after_nil]
  rw [StableHlo.reshape_result_ne _ _ _ _ _ _ _ h10]

/-! ## The projections' inputs: the argument arrays with their rows flattened -/

theorem W1_v0 : W1 m ρ c (Proc.devRef .tc main_v0) = flat (m ((c : Thread nD τ).loc main_arg0)) := by
  show StableHlo.after hostOps0 (W0 m ρ c) (Proc.devRef .tc main_v0) = _
  after_results
  rfl

theorem W3_v3 : W3 m ρ c (Proc.devRef .tc main_v3) = flat (m ((c : Thread nD τ).loc main_arg1)) := by
  refine Eq.trans ?_ (congrArg flat (keepW2 m ρ c main_arg1 (by decide) (by decide)))
  show StableHlo.after hostOps1 (W2 m ρ c) (Proc.devRef .tc main_v3) = _
  after_results
  rfl

theorem W5_v6 : W5 m ρ c (Proc.devRef .tc main_v6) = flat (m ((c : Thread nD τ).loc main_arg2)) := by
  refine Eq.trans ?_ (congrArg flat (keepW4 m ρ c main_arg2 (by decide) (by decide) (by decide) (by decide) (by decide)))
  show StableHlo.after hostOps2 (W4 m ρ c) (Proc.devRef .tc main_v6) = _
  after_results
  rfl

/-! ## What each region computes, from the contents it is entered with -/

/-- The five regions' output arrays as functions of the arrays each region is entered with: four linear layers on
    flattened rows and the attention stage. -/
structure RegionValues : Prop where
  lin0 : ∀ (V : (c : Dev nD) → (b : Ref sig .tc) → Buf (Elt Ideal) ((c : Thread nD τ).loc b)) (c : Dev nD),
    (dat0 (F := Ideal) V c).arrAt 3 cfg0.N = linF (V c main_v0) (V c main_arg4) (V c main_arg5)
  lin1 : ∀ (V : (c : Dev nD) → (b : Ref sig .tc) → Buf (Elt Ideal) ((c : Thread nD τ).loc b)) (c : Dev nD),
    (dat1 (F := Ideal) V c).arrAt 3 cfg1.N = linF (V c main_v3) (V c main_arg6) (V c main_arg7)
  lin2 : ∀ (V : (c : Dev nD) → (b : Ref sig .tc) → Buf (Elt Ideal) ((c : Thread nD τ).loc b)) (c : Dev nD),
    (dat2 (F := Ideal) V c).arrAt 3 cfg2.N = linF (V c main_v6) (V c main_arg8) (V c main_arg9)
  attn : ∀ (V : (c : Dev nD) → (b : Ref sig .tc) → Buf (Elt Ideal) ((c : Thread nD τ).loc b)) (c : Dev nD),
    (dat3 (F := Ideal) V c).arrAt 4 cfg3.N = attnF (V c main_v2) (V c main_v5) (V c main_v8) (V c main_arg3)
  lin4 : ∀ (V : (c : Dev nD) → (b : Ref sig .tc) → Buf (Elt Ideal) ((c : Thread nD τ).loc b)) (c : Dev nD),
    (dat4 (F := Ideal) V c).arrAt 3 cfg4.N = linF (V c main_v10) (V c main_arg10) (V c main_arg11)

variable (H : RegionValues)
include H

/-! ## The result buffer, read back boundary by boundary -/

/-- The query projection, as region 0 leaves it. -/
theorem W2_v1 : W2 m ρ c (Proc.devRef .tc main_v1) = (linF (flat (m ((c : Thread nD τ).loc main_arg0))) (m ((c : Thread nD τ).loc main_arg4)) (m ((c : Thread nD τ).loc main_arg5))) := by
  refine (W2_arr m ρ c 3).trans ((H.lin0 (V1 m ρ) c).trans ?_)
  show linF (W1 m ρ c (Proc.devRef .tc main_v0)) (W1 m ρ c (Proc.devRef .tc main_arg4)) (W1 m ρ c (Proc.devRef .tc main_arg5)) = _
  rw [W1_v0, keepW1 m ρ c main_arg4 (by decide), keepW1 m ρ c main_arg5 (by decide)]

theorem W3_v2 : W3 m ρ c (Proc.devRef .tc main_v2) = unflat (linF (flat (m ((c : Thread nD τ).loc main_arg0))) (m ((c : Thread nD τ).loc main_arg4)) (m ((c : Thread nD τ).loc main_arg5))) := by
  refine Eq.trans ?_ (congrArg unflat (W2_v1 m ρ c H))
  show StableHlo.after hostOps1 (W2 m ρ c) (Proc.devRef .tc main_v2) = _
  after_results
  rfl

/-- The key projection, as region 1 leaves it. -/
theorem W4_v4 : W4 m ρ c (Proc.devRef .tc main_v4) = (linF (flat (m ((c : Thread nD τ).loc main_arg1))) (m ((c : Thread nD τ).loc main_arg6)) (m ((c : Thread nD τ).loc main_arg7))) := by
  refine (W4_arr m ρ c 3).trans ((H.lin1 (V3 m ρ) c).trans ?_)
  show linF (W3 m ρ c (Proc.devRef .tc main_v3)) (W3 m ρ c (Proc.devRef .tc main_arg6)) (W3 m ρ c (Proc.devRef .tc main_arg7)) = _
  rw [W3_v3, keepW3 m ρ c main_arg6 (by decide) (by decide) (by decide) (by decide), keepW3 m ρ c main_arg7 (by decide) (by decide) (by decide) (by decide)]

theorem W5_v5 : W5 m ρ c (Proc.devRef .tc main_v5) = unflat (linF (flat (m ((c : Thread nD τ).loc main_arg1))) (m ((c : Thread nD τ).loc main_arg6)) (m ((c : Thread nD τ).loc main_arg7))) := by
  refine Eq.trans ?_ (congrArg unflat (W4_v4 m ρ c H))
  show StableHlo.after hostOps2 (W4 m ρ c) (Proc.devRef .tc main_v5) = _
  after_results
  rfl

/-- The value projection, as region 2 leaves it. -/
theorem W6_v7 : W6 m ρ c (Proc.devRef .tc main_v7) = (linF (flat (m ((c : Thread nD τ).loc main_arg2))) (m ((c : Thread nD τ).loc main_arg8)) (m ((c : Thread nD τ).loc main_arg9))) := by
  refine (W6_arr m ρ c 3).trans ((H.lin2 (V5 m ρ) c).trans ?_)
  show linF (W5 m ρ c (Proc.devRef .tc main_v6)) (W5 m ρ c (Proc.devRef .tc main_arg8)) (W5 m ρ c (Proc.devRef .tc main_arg9)) = _
  rw [W5_v6, keepW5 m ρ c main_arg8 (by decide) (by decide) (by decide) (by decide) (by decide) (by decide) (by decide), keepW5 m ρ c main_arg9 (by decide) (by decide) (by decide) (by decide) (by decide) (by decide) (by decide)]

theorem W7_v8 : W7 m ρ c (Proc.devRef .tc main_v8) = unflat (linF (flat (m ((c : Thread nD τ).loc main_arg2))) (m ((c : Thread nD τ).loc main_arg8)) (m ((c : Thread nD τ).loc main_arg9))) := by
  refine Eq.trans ?_ (congrArg unflat (W6_v7 m ρ c H))
  show StableHlo.after hostOps3 (W6 m ρ c) (Proc.devRef .tc main_v8) = _
  after_results
  rfl

/-- The keys are still in place when the attention region is entered. -/
theorem W7_v5 : W7 m ρ c (Proc.devRef .tc main_v5) = unflat (linF (flat (m ((c : Thread nD τ).loc main_arg1))) (m ((c : Thread nD τ).loc main_arg6)) (m ((c : Thread nD τ).loc main_arg7))) := by
  refine Eq.trans ?_ ((W6_of_ne m ρ c main_v5 (by decide)).trans (W5_v5 m ρ c H))
  show StableHlo.after hostOps3 (W6 m ρ c) (Proc.devRef .tc main_v5) = _
  after_results

/-- So are the queries. -/
theorem W7_v2 : W7 m ρ c (Proc.devRef .tc main_v2) = unflat (linF (flat (m ((c : Thread nD τ).loc main_arg0))) (m ((c : Thread nD τ).loc main_arg4)) (m ((c : Thread nD τ).loc main_arg5))) := by
  have e5 : W5 m ρ c (Proc.devRef .tc main_v2) = unflat (linF (flat (m ((c : Thread nD τ).loc main_arg0))) (m ((c : Thread nD τ).loc main_arg4)) (m ((c : Thread nD τ).loc main_arg5))) := by
    refine Eq.trans ?_ ((W4_of_ne m ρ c main_v2 (by decide)).trans (W3_v2 m ρ c H))
    show StableHlo.after hostOps2 (W4 m ρ c) (Proc.devRef .tc main_v2) = _
    after_results
  refine Eq.trans ?_ ((W6_of_ne m ρ c main_v2 (by decide)).trans e5)
  show StableHlo.after hostOps3 (W6 m ρ c) (Proc.devRef .tc main_v2) = _
  after_results

/-- The attention stage, as region 3 leaves it. -/
theorem W8_v9 : W8 m ρ c (Proc.devRef .tc main_v9) = (attnF (unflat (linF (flat (m ((c : Thread nD τ).loc main_arg0))) (m ((c : Thread nD τ).loc main_arg4)) (m ((c : Thread nD τ).loc main_arg5)))) (unflat (linF (flat (m ((c : Thread nD τ).loc main_arg1))) (m ((c : Thread nD τ).loc main_arg6)) (m ((c : Thread nD τ).loc main_arg7)))) (unflat (linF (flat (m ((c : Thread nD τ).loc main_arg2))) (m ((c : Thread nD τ).loc main_arg8)) (m ((c : Thread nD τ).loc main_arg9)))) (m ((c : Thread nD τ).loc main_arg3))) := by
  refine (W8_arr m ρ c 4).trans ((H.attn (V7 m ρ) c).trans ?_)
  show attnF (W7 m ρ c (Proc.devRef .tc main_v2)) (W7 m ρ c (Proc.devRef .tc main_v5)) (W7 m ρ c (Proc.devRef .tc main_v8)) (W7 m ρ c (Proc.devRef .tc main_arg3)) = _
  rw [W7_v2 m ρ c H, W7_v5 m ρ c H, W7_v8 m ρ c H, keepW7 m ρ c main_arg3 (by decide) (by decide) (by decide) (by decide) (by decide) (by decide) (by decide) (by decide) (by decide)]

theorem W9_v10 : W9 m ρ c (Proc.devRef .tc main_v10) = flat (attnF (unflat (linF (flat (m ((c : Thread nD τ).loc main_arg0))) (m ((c : Thread nD τ).loc main_arg4)) (m ((c : Thread nD τ).loc main_arg5)))) (unflat (linF (flat (m ((c : Thread nD τ).loc main_arg1))) (m ((c : Thread nD τ).loc main_arg6)) (m ((c : Thread nD τ).loc main_arg7)))) (unflat (linF (flat (m ((c : Thread nD τ).loc main_arg2))) (m ((c : Thread nD τ).loc main_arg8)) (m ((c : Thread nD τ).loc main_arg9)))) (m ((c : Thread nD τ).loc main_arg3))) := by
  refine Eq.trans ?_ (congrArg flat (W8_v9 m ρ c H))
  show StableHlo.after hostOps4 (W8 m ρ c) (Proc.devRef .tc main_v10) = _
  after_results
  rfl

/-- The output projection, as region 4 leaves it. -/
theorem W10_v11 : W10 m ρ c (Proc.devRef .tc main_v11) = (linF (flat (attnF (unflat (linF (flat (m ((c : Thread nD τ).loc main_arg0))) (m ((c : Thread nD τ).loc main_arg4)) (m ((c : Thread nD τ).loc main_arg5)))) (unflat (linF (flat (m ((c : Thread nD τ).loc main_arg1))) (m ((c : Thread nD τ).loc main_arg6)) (m ((c : Thread nD τ).loc main_arg7)))) (unflat (linF (flat (m ((c : Thread nD τ).loc main_arg2))) (m ((c : Thread nD τ).loc main_arg8)) (m ((c : Thread nD τ).loc main_arg9)))) (m ((c : Thread nD τ).loc main_arg3)))) (m ((c : Thread nD τ).loc main_arg10)) (m ((c : Thread nD τ).loc main_arg11))) := by
  refine (W10_arr m ρ c 3).trans ((H.lin4 (V9 m ρ) c).trans ?_)
  show linF (W9 m ρ c (Proc.devRef .tc main_v10)) (W9 m ρ c (Proc.devRef .tc main_arg10)) (W9 m ρ c (Proc.devRef .tc main_arg11)) = _
  rw [W9_v10 m ρ c H, keepW9 m ρ c main_arg10 (by decide) (by decide) (by decide) (by decide) (by decide) (by decide) (by decide) (by decide) (by decide) (by decide) (by decide), keepW9 m ρ c main_arg11 (by decide) (by decide) (by decide) (by decide) (by decide) (by decide) (by decide) (by decide) (by decide) (by decide) (by decide)]

/-- The result buffer at the end of the program holds the whole layer of the argument arrays. -/
theorem W11_v12 : W11 m ρ c (Proc.devRef .tc main_v12)
    = mhaF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine Eq.trans ?_ (congrArg unflat (W10_v11 m ρ c H))
  show StableHlo.after hostOps5 (W10 m ρ c) (Proc.devRef .tc main_v12) = _
  after_results
  rfl

omit H in
/-- The idealized kernel's run with its result as the layer of the arguments. -/
theorem run_value (H : RegionValues) (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v12)
        = mhaF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W11_v12 m ρ c H), (h c).2⟩) (run_named m ρ)

end ReadBack

end Cert.KernelIdeal.Gen

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.LinRegion.lean ====
/-
  The four linear-layer regions of the kernel, each read as one function of the arrays the region finds: the region's
  output array [8192, 1024] ends holding, at (r, c), the dot product of row r of the input array with row c of the
  weight matrix plus the bias at c. Per region: the stored block at an index (a product contracting the second axis
  of both operands, accumulated from zero, plus the bias row broadcast down the rows), what one grid point writes back
  (block t of that function: the input block moves with the output block along the rows, weight and bias stay whole),
  the blocks covering the array (row r lies in block r / 1024), and the array after the region.
-/
import proofs.«170359_j56186762166614_2_alg».proof.Proof.Gen.KernelIdeal.Frame
import proofs.«170359_j56186762166614_2_alg».proof.Proof.Spec
import proofs.«170359_j56186762166614_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LinValue

open Cert.KernelIdeal Cert.KernelIdeal.Gen Cert.Mha Cert.KernelBody
open Idealize.ShloMosaic Idealize.ShloMosaic.ValueIdx Idealize.ShloMosaic.TcCoe Idealize.SL.Sem
open Idealize.ShloMosaic.Pipeline (Dat Cfg Window)

/-- The product of an m×k matrix by the transpose of an n×k matrix (both operands contracted along axis 1)
    accumulated into the zero splat, read at (r, c): the sum over the shared coordinate of the products. -/
theorem matmul_rows_zero_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (r : Fin m) (c : Fin n) :
    matmul (⟨[1], [1], [0], [0], [], [], w⟩ : DotDims _ _ _) prec A B
        (constant (F := Ideal) ⟨2, ![m, n]⟩ .f32 0x00000000#32) (ix2 r c)
      = ∑ i : Fin k, A (ix2 r i) * B (ix2 c i) := by
  show FloatOps.matmul _ prec A B (constant (F := Ideal) ⟨2, ![m, n]⟩ .f32 0x00000000#32) (ix2 r c) = _
  rw [Ideal.matmul_constant_zero_apply,
    ← Equiv.sum_comp (contrEquiv1 (⟨[1], [1], [0], [0], [], [], w⟩ : DotDims _ _ _) k rfl rfl).symm]
  refine Finset.sum_congr rfl fun i _ => ?_
  have c2 := contrEquiv1_symm_val
    (⟨[1], [1], [0], [0], [], [], w⟩ : DotDims ⟨2, ![m, k]⟩ ⟨2, ![n, k]⟩ ⟨2, ![m, n]⟩) k rfl rfl i
  have l2 : (⟨[1], [1], [0], [0], [], [], w⟩ : DotDims ⟨2, ![m, k]⟩ ⟨2, ![n, k]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 r c)
      ((contrEquiv1 _ k rfl rfl).symm i) = ix2 c i := by
    funext ax; apply Fin.ext
    match ax with
    | ⟨0, _⟩ => simp [DotDims.rhsIdx]; rfl
    | ⟨1, _⟩ => simp [DotDims.rhsIdx]; exact c2
  rw [l2, r2]

/-- The zero offsets of a whole-block access, as a constant function. -/
theorem zero_off2 : (![0, 0] : Fin 2 → Nat) = fun _ => 0 := funext fun a => by fin_cases a <;> rfl
theorem zero_off1 : (![0] : Fin 1 → Nat) = fun _ => 0 := funext fun a => by fin_cases a <;> rfl

/-! ## Region 0 -/

/-- The body's stored value at (p, q): row p of the input block against row q of the weight, plus the bias at q. -/
theorem pay0_apply (x0 x1 : FVec Ideal S1024x1024 .f32) (x2 : FVec Ideal S1024 .f32) (p q : Fin 1024) :
    Gen.k0_pay1 (F := Ideal) x0 x1 x2 (ix2 p q) = (∑ k : Fin 1024, x0 (ix2 p k) * x1 (ix2 q k)) + x2 (ix1 q) := by
  unfold Gen.k0_pay1
  rw [shapeCast_self]
  refine (addf_apply _ _ _).trans ?_
  refine congrArg₂ (· + ·) ?_ ?_
  · exact matmul_rows_zero_apply _ none _ _ p q
  · exact (broadcastTo_row_apply _ _ p q).trans (shapeCast_row_apply _ _ q)

/-- The body's value at (p, q) is the linear layer at an array index i as soon as row p of the input block is row i₀ of
    the array, row q of the weight block is row i₁ of the weight and the bias block at q is the bias at i₁. -/
theorem pay0_lin (a : A2.Idx → EReal) (w : Wt.Idx → EReal) (b : Bs.Idx → EReal)
    (x0 x1 : FVec Ideal S1024x1024 .f32) (x2 : FVec Ideal S1024 .f32) (i : A2.Idx) (p q : Fin 1024)
    (h0 : ∀ k : Fin 1024, x0 (ix2 p k) = a (ix2 (i 0) k))
    (h1 : ∀ k : Fin 1024, x1 (ix2 q k) = w (ix2 (i 1) k))
    (h2 : x2 (ix1 q) = b (ix1 (i 1))) :
    Gen.k0_pay1 (F := Ideal) x0 x1 x2 (ix2 p q) = linF a w b i := by
  rw [pay0_apply, h2]
  show _ = (∑ k : Fin 1024, a (ix2 (i 0) k) * w (ix2 (i 1) k)) + b (ix1 (i 1))
  refine congrArg (· + b (ix1 (i 1))) ?_
  exact Finset.sum_congr rfl fun k _ => by rw [h0, h1]

/-- The index maps over the grid: the input block moves with the output block along the rows and both start at column
    0; the weight and the bias blocks stay at the origin; point t's output block is block t. -/
theorem idx_facts0 : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 1) = 0 ∧ win0_3.index t (1 : Fin 2) = 0 ∧ win0_3.index t (0 : Fin 2) ≤ 7 :=
  (by decide +kernel : ∀ t : Fin grid0.N, _)

/-- What point t writes back is block t of the linear layer of the arrays as the region finds them. -/
theorem flushed0_eq (V : (c : Dev nD) → (b : Ref sig .tc) → Buf (Elt Ideal) ((c : Thread nD τ).loc b)) (c : Dev nD) (t : Fin cfg0.N) :
    (Gen.dat0 (F := Ideal) V c).flushed 3 t = ((cfg0.win 3).blk t).view.read (Elt Ideal) (linF (V c main_v0) (V c main_arg4) (V c main_arg5)) := by
  show (cfg0.win 3).cut (grid0.coords t) ((Gen.dat0 V c).after 3 t) = _
  rw [Gen.after0_3]
  unfold Gen.out0_3
  rw [View.canon_unit_zero zero_off2]
  simp only [View.ld_unit_zero (S := S1024x1024) zero_off2, View.ld_unit_zero (S := S1024) zero_off1]
  obtain ⟨e0, e1, e2, e3, e4, e5, e6⟩ := idx_facts0 t
  funext j
  obtain ⟨p, q, rfl⟩ : ∃ (p : Fin 1024) (q : Fin 1024), j = ix2 p q := ⟨j 0, j 1, eq_ix2 j⟩
  show Gen.k0_pay1 (F := Ideal) _ _ _ (ix2 p q) = linF _ _ _ (((cfg0.win 3).blk t).view.emb (ix2 p q))
  refine pay0_lin _ _ _ _ _ _ _ p q (fun k => ?_) (fun k => ?_) ?_
  · have h : ((cfg0.win 0).blk t).view.emb (ix2 p k) = ix2 (((cfg0.win 3).blk t).view.emb (ix2 p q) 0) k := by
      funext a; apply Fin.ext
      match a with
      | ⟨0, _⟩ => show win0_0.index t (0 : Fin 2) * 1024 + 1 * p.val = win0_3.index t (0 : Fin 2) * 1024 + 1 * p.val; omega
      | ⟨1, _⟩ => show win0_0.index t (1 : Fin 2) * 1024 + 1 * k.val = k.val; omega
    show V c main_v0 (((cfg0.win 0).blk t).view.emb (ix2 p k)) = _
    rw [h] <;> rfl
  · have h : ((cfg0.win 1).blk t).view.emb (ix2 q k) = ix2 (((cfg0.win 3).blk t).view.emb (ix2 p q) 1) k := by
      funext a; apply Fin.ext
      match a with
      | ⟨0, _⟩ => show win0_1.index t (0 : Fin 2) * 1024 + 1 * q.val = win0_3.index t (1 : Fin 2) * 1024 + 1 * q.val; omega
      | ⟨1, _⟩ => show win0_1.index t (1 : Fin 2) * 1024 + 1 * k.val = k.val; omega
    show V c main_arg4 (((cfg0.win 1).blk t).view.emb (ix2 q k)) = _
    rw [h] <;> rfl
  · have h : ((cfg0.win 2).blk t).view.emb (ix1 q) = ix1 (((cfg0.win 3).blk t).view.emb (ix2 p q) 1) := by
      funext a; apply Fin.ext
      match a with
      | ⟨0, _⟩ => show win0_2.index t (0 : Fin 1) * 1024 + 1 * q.val = win0_3.index t (1 : Fin 2) * 1024 + 1 * q.val; omega
    show V c main_arg5 (((cfg0.win 2).blk t).view.emb (ix1 q)) = _
    rw [h] <;> rfl

/-- An index of the output array is in point t's block iff each coordinate is in the block's range on its axis. -/
theorem mem_blk0 (t : Fin cfg0.N) (i : S8192x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- Every block of rows is some point's. -/
theorem idx_onto0 : ∀ q0 : Fin 8, ∃ t : Fin cfg0.N, win0_3.index t = ![q0.val, 0] :=
  (by decide +kernel : ∀ q0 : Fin 8, ∃ t : Fin grid0.N, win0_3.index t = ![q0.val, 0])

/-- The output blocks cover the array: row r lies in the block of point r / 1024. -/
theorem cover0 (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨t, ht⟩ := idx_onto0 ⟨(i 0).val / 1024, by omega⟩
  have q0 : win0_3.index t (0 : Fin 2) = (i 0).val / 1024 := congrFun ht 0
  have q1 : win0_3.index t (1 : Fin 2) = 0 := congrFun ht 1
  refine ⟨t, Gen.flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The output array of the region: the linear layer of the arrays as the region finds them. -/
theorem lin_final0 (V : (c : Dev nD) → (b : Ref sig .tc) → Buf (Elt Ideal) ((c : Thread nD τ).loc b)) (c : Dev nD) :
    (Gen.dat0 (F := Ideal) V c).arrAt 3 cfg0.N = linF (V c main_v0) (V c main_arg4) (V c main_arg5) :=
  (Gen.dat0 (F := Ideal) V c).arrAt_eq_of_cover 3 (linF (V c main_v0) (V c main_arg4) (V c main_arg5))
    (fun t _ => flushed0_eq V c t) cover0

/-! ## Region 1 -/

/-- The body's stored value at (p, q): row p of the input block against row q of the weight, plus the bias at q. -/
theorem pay1_apply (x0 x1 : FVec Ideal S1024x1024 .f32) (x2 : FVec Ideal S1024 .f32) (p q : Fin 1024) :
    Gen.k1_pay1 (F := Ideal) x0 x1 x2 (ix2 p q) = (∑ k : Fin 1024, x0 (ix2 p k) * x1 (ix2 q k)) + x2 (ix1 q) := by
  unfold Gen.k1_pay1
  rw [shapeCast_self]
  refine (addf_apply _ _ _).trans ?_
  refine congrArg₂ (· + ·) ?_ ?_
  · exact matmul_rows_zero_apply _ none _ _ p q
  · exact (broadcastTo_row_apply _ _ p q).trans (shapeCast_row_apply _ _ q)

/-- The body's value at (p, q) is the linear layer at an array index i as soon as row p of the input block is row i₀ of
    the array, row q of the weight block is row i₁ of the weight and the bias block at q is the bias at i₁. -/
theorem pay1_lin (a : A2.Idx → EReal) (w : Wt.Idx → EReal) (b : Bs.Idx → EReal)
    (x0 x1 : FVec Ideal S1024x1024 .f32) (x2 : FVec Ideal S1024 .f32) (i : A2.Idx) (p q : Fin 1024)
    (h0 : ∀ k : Fin 1024, x0 (ix2 p k) = a (ix2 (i 0) k))
    (h1 : ∀ k : Fin 1024, x1 (ix2 q k) = w (ix2 (i 1) k))
    (h2 : x2 (ix1 q) = b (ix1 (i 1))) :
    Gen.k1_pay1 (F := Ideal) x0 x1 x2 (ix2 p q) = linF a w b i := by
  rw [pay1_apply, h2]
  show _ = (∑ k : Fin 1024, a (ix2 (i 0) k) * w (ix2 (i 1) k)) + b (ix1 (i 1))
  refine congrArg (· + b (ix1 (i 1))) ?_
  exact Finset.sum_congr rfl fun k _ => by rw [h0, h1]

/-- The index maps over the grid: the input block moves with the output block along the rows and both start at column
    0; the weight and the bias blocks stay at the origin; point t's output block is block t. -/
theorem idx_facts1 : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 1) = 0 ∧ win1_3.index t (1 : Fin 2) = 0 ∧ win1_3.index t (0 : Fin 2) ≤ 7 :=
  (by decide +kernel : ∀ t : Fin grid1.N, _)

/-- What point t writes back is block t of the linear layer of the arrays as the region finds them. -/
theorem flushed1_eq (V : (c : Dev nD) → (b : Ref sig .tc) → Buf (Elt Ideal) ((c : Thread nD τ).loc b)) (c : Dev nD) (t : Fin cfg1.N) :
    (Gen.dat1 (F := Ideal) V c).flushed 3 t = ((cfg1.win 3).blk t).view.read (Elt Ideal) (linF (V c main_v3) (V c main_arg6) (V c main_arg7)) := by
  show (cfg1.win 3).cut (grid1.coords t) ((Gen.dat1 V c).after 3 t) = _
  rw [Gen.after1_3]
  unfold Gen.out1_3
  rw [View.canon_unit_zero zero_off2]
  simp only [View.ld_unit_zero (S := S1024x1024) zero_off2, View.ld_unit_zero (S := S1024) zero_off1]
  obtain ⟨e0, e1, e2, e3, e4, e5, e6⟩ := idx_facts1 t
  funext j
  obtain ⟨p, q, rfl⟩ : ∃ (p : Fin 1024) (q : Fin 1024), j = ix2 p q := ⟨j 0, j 1, eq_ix2 j⟩
  show Gen.k1_pay1 (F := Ideal) _ _ _ (ix2 p q) = linF _ _ _ (((cfg1.win 3).blk t).view.emb (ix2 p q))
  refine pay1_lin _ _ _ _ _ _ _ p q (fun k => ?_) (fun k => ?_) ?_
  · have h : ((cfg1.win 0).blk t).view.emb (ix2 p k) = ix2 (((cfg1.win 3).blk t).view.emb (ix2 p q) 0) k := by
      funext a; apply Fin.ext
      match a with
      | ⟨0, _⟩ => show win1_0.index t (0 : Fin 2) * 1024 + 1 * p.val = win1_3.index t (0 : Fin 2) * 1024 + 1 * p.val; omega
      | ⟨1, _⟩ => show win1_0.index t (1 : Fin 2) * 1024 + 1 * k.val = k.val; omega
    show V c main_v3 (((cfg1.win 0).blk t).view.emb (ix2 p k)) = _
    rw [h] <;> rfl
  · have h : ((cfg1.win 1).blk t).view.emb (ix2 q k) = ix2 (((cfg1.win 3).blk t).view.emb (ix2 p q) 1) k := by
      funext a; apply Fin.ext
      match a with
      | ⟨0, _⟩ => show win1_1.index t (0 : Fin 2) * 1024 + 1 * q.val = win1_3.index t (1 : Fin 2) * 1024 + 1 * q.val; omega
      | ⟨1, _⟩ => show win1_1.index t (1 : Fin 2) * 1024 + 1 * k.val = k.val; omega
    show V c main_arg6 (((cfg1.win 1).blk t).view.emb (ix2 q k)) = _
    rw [h] <;> rfl
  · have h : ((cfg1.win 2).blk t).view.emb (ix1 q) = ix1 (((cfg1.win 3).blk t).view.emb (ix2 p q) 1) := by
      funext a; apply Fin.ext
      match a with
      | ⟨0, _⟩ => show win1_2.index t (0 : Fin 1) * 1024 + 1 * q.val = win1_3.index t (1 : Fin 2) * 1024 + 1 * q.val; omega
    show V c main_arg7 (((cfg1.win 2).blk t).view.emb (ix1 q)) = _
    rw [h] <;> rfl

/-- An index of the output array is in point t's block iff each coordinate is in the block's range on its axis. -/
theorem mem_blk1 (t : Fin cfg1.N) (i : S8192x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v4).slice (win1_3.rect t)).set ↔ _
  rw [View.set_slice_whole, Rect.mem_set_unit]
  exact Iff.rfl

/-- Every block of rows is some point's. -/
theorem idx_onto1 : ∀ q0 : Fin 8, ∃ t : Fin cfg1.N, win1_3.index t = ![q0.val, 0] :=
  (by decide +kernel : ∀ q0 : Fin 8, ∃ t : Fin grid1.N, win1_3.index t = ![q0.val, 0])

/-- The output blocks cover the array: row r lies in the block of point r / 1024. -/
theorem cover1 (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  obtain ⟨t, ht⟩ := idx_onto1 ⟨(i 0).val / 1024, by omega⟩
  have q0 : win1_3.index t (0 : Fin 2) = (i 0).val / 1024 := congrFun ht 0
  have q1 : win1_3.index t (1 : Fin 2) = 0 := congrFun ht 1
  refine ⟨t, Gen.flush1_3 t, ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- The output array of the region: the linear layer of the arrays as the region finds them. -/
theorem lin_final1 (V : (c : Dev nD) → (b : Ref sig .tc) → Buf (Elt Ideal) ((c : Thread nD τ).loc b)) (c : Dev nD) :
    (Gen.dat1 (F := Ideal) V c).arrAt 3 cfg1.N = linF (V c main_v3) (V c main_arg6) (V c main_arg7) :=
  (Gen.dat1 (F := Ideal) V c).arrAt_eq_of_cover 3 (linF (V c main_v3) (V c main_arg6) (V c main_arg7))
    (fun t _ => flushed1_eq V c t) cover1

/-! ## Region 2 -/

/-- The body's stored value at (p, q): row p of the input block against row q of the weight, plus the bias at q. -/
theorem pay2_apply (x0 x1 : FVec Ideal S1024x1024 .f32) (x2 : FVec Ideal S1024 .f32) (p q : Fin 1024) :
    Gen.k2_pay1 (F := Ideal) x0 x1 x2 (ix2 p q) = (∑ k : Fin 1024, x0 (ix2 p k) * x1 (ix2 q k)) + x2 (ix1 q) := by
  unfold Gen.k2_pay1
  rw [shapeCast_self]
  refine (addf_apply _ _ _).trans ?_
  refine congrArg₂ (· + ·) ?_ ?_
  · exact matmul_rows_zero_apply _ none _ _ p q
  · exact (broadcastTo_row_apply _ _ p q).trans (shapeCast_row_apply _ _ q)

/-- The body's value at (p, q) is the linear layer at an array index i as soon as row p of the input block is row i₀ of
    the array, row q of the weight block is row i₁ of the weight and the bias block at q is the bias at i₁. -/
theorem pay2_lin (a : A2.Idx → EReal) (w : Wt.Idx → EReal) (b : Bs.Idx → EReal)
    (x0 x1 : FVec Ideal S1024x1024 .f32) (x2 : FVec Ideal S1024 .f32) (i : A2.Idx) (p q : Fin 1024)
    (h0 : ∀ k : Fin 1024, x0 (ix2 p k) = a (ix2 (i 0) k))
    (h1 : ∀ k : Fin 1024, x1 (ix2 q k) = w (ix2 (i 1) k))
    (h2 : x2 (ix1 q) = b (ix1 (i 1))) :
    Gen.k2_pay1 (F := Ideal) x0 x1 x2 (ix2 p q) = linF a w b i := by
  rw [pay2_apply, h2]
  show _ = (∑ k : Fin 1024, a (ix2 (i 0) k) * w (ix2 (i 1) k)) + b (ix1 (i 1))
  refine congrArg (· + b (ix1 (i 1))) ?_
  exact Finset.sum_congr rfl fun k _ => by rw [h0, h1]

/-- The index maps over the grid: the input block moves with the output block along the rows and both start at column
    0; the weight and the bias blocks stay at the origin; point t's output block is block t. -/
theorem idx_facts2 : ∀ t : Fin cfg2.N, win2_0.index t (0 : Fin 2) = win2_3.index t (0 : Fin 2)
    ∧ win2_0.index t (1 : Fin 2) = 0 ∧ win2_1.index t (0 : Fin 2) = 0 ∧ win2_1.index t (1 : Fin 2) = 0
    ∧ win2_2.index t (0 : Fin 1) = 0 ∧ win2_3.index t (1 : Fin 2) = 0 ∧ win2_3.index t (0 : Fin 2) ≤ 7 :=
  (by decide +kernel : ∀ t : Fin grid2.N, _)

/-- What point t writes back is block t of the linear layer of the arrays as the region finds them. -/
theorem flushed2_eq (V : (c : Dev nD) → (b : Ref sig .tc) → Buf (Elt Ideal) ((c : Thread nD τ).loc b)) (c : Dev nD) (t : Fin cfg2.N) :
    (Gen.dat2 (F := Ideal) V c).flushed 3 t = ((cfg2.win 3).blk t).view.read (Elt Ideal) (linF (V c main_v6) (V c main_arg8) (V c main_arg9)) := by
  show (cfg2.win 3).cut (grid2.coords t) ((Gen.dat2 V c).after 3 t) = _
  rw [Gen.after2_3]
  unfold Gen.out2_3
  rw [View.canon_unit_zero zero_off2]
  simp only [View.ld_unit_zero (S := S1024x1024) zero_off2, View.ld_unit_zero (S := S1024) zero_off1]
  obtain ⟨e0, e1, e2, e3, e4, e5, e6⟩ := idx_facts2 t
  funext j
  obtain ⟨p, q, rfl⟩ : ∃ (p : Fin 1024) (q : Fin 1024), j = ix2 p q := ⟨j 0, j 1, eq_ix2 j⟩
  show Gen.k2_pay1 (F := Ideal) _ _ _ (ix2 p q) = linF _ _ _ (((cfg2.win 3).blk t).view.emb (ix2 p q))
  refine pay2_lin _ _ _ _ _ _ _ p q (fun k => ?_) (fun k => ?_) ?_
  · have h : ((cfg2.win 0).blk t).view.emb (ix2 p k) = ix2 (((cfg2.win 3).blk t).view.emb (ix2 p q) 0) k := by
      funext a; apply Fin.ext
      match a with
      | ⟨0, _⟩ => show win2_0.index t (0 : Fin 2) * 1024 + 1 * p.val = win2_3.index t (0 : Fin 2) * 1024 + 1 * p.val; omega
      | ⟨1, _⟩ => show win2_0.index t (1 : Fin 2) * 1024 + 1 * k.val = k.val; omega
    show V c main_v6 (((cfg2.win 0).blk t).view.emb (ix2 p k)) = _
    rw [h] <;> rfl
  · have h : ((cfg2.win 1).blk t).view.emb (ix2 q k) = ix2 (((cfg2.win 3).blk t).view.emb (ix2 p q) 1) k := by
      funext a; apply Fin.ext
      match a with
      | ⟨0, _⟩ => show win2_1.index t (0 : Fin 2) * 1024 + 1 * q.val = win2_3.index t (1 : Fin 2) * 1024 + 1 * q.val; omega
      | ⟨1, _⟩ => show win2_1.index t (1 : Fin 2) * 1024 + 1 * k.val = k.val; omega
    show V c main_arg8 (((cfg2.win 1).blk t).view.emb (ix2 q k)) = _
    rw [h] <;> rfl
  · have h : ((cfg2.win 2).blk t).view.emb (ix1 q) = ix1 (((cfg2.win 3).blk t).view.emb (ix2 p q) 1) := by
      funext a; apply Fin.ext
      match a with
      | ⟨0, _⟩ => show win2_2.index t (0 : Fin 1) * 1024 + 1 * q.val = win2_3.index t (1 : Fin 2) * 1024 + 1 * q.val; omega
    show V c main_arg9 (((cfg2.win 2).blk t).view.emb (ix1 q)) = _
    rw [h] <;> rfl

/-- An index of the output array is in point t's block iff each coordinate is in the block's range on its axis. -/
theorem mem_blk2 (t : Fin cfg2.N) (i : S8192x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v7).slice (win2_3.rect t)).set ↔ _
  rw [View.set_slice_whole, Rect.mem_set_unit]
  exact Iff.rfl

/-- Every block of rows is some point's. -/
theorem idx_onto2 : ∀ q0 : Fin 8, ∃ t : Fin cfg2.N, win2_3.index t = ![q0.val, 0] :=
  (by decide +kernel : ∀ q0 : Fin 8, ∃ t : Fin grid2.N, win2_3.index t = ![q0.val, 0])

/-- The output blocks cover the array: row r lies in the block of point r / 1024. -/
theorem cover2 (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  obtain ⟨t, ht⟩ := idx_onto2 ⟨(i 0).val / 1024, by omega⟩
  have q0 : win2_3.index t (0 : Fin 2) = (i 0).val / 1024 := congrFun ht 0
  have q1 : win2_3.index t (1 : Fin 2) = 0 := congrFun ht 1
  refine ⟨t, Gen.flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- The output array of the region: the linear layer of the arrays as the region finds them. -/
theorem lin_final2 (V : (c : Dev nD) → (b : Ref sig .tc) → Buf (Elt Ideal) ((c : Thread nD τ).loc b)) (c : Dev nD) :
    (Gen.dat2 (F := Ideal) V c).arrAt 3 cfg2.N = linF (V c main_v6) (V c main_arg8) (V c main_arg9) :=
  (Gen.dat2 (F := Ideal) V c).arrAt_eq_of_cover 3 (linF (V c main_v6) (V c main_arg8) (V c main_arg9))
    (fun t _ => flushed2_eq V c t) cover2

/-! ## Region 4 -/

/-- The body's stored value at (p, q): row p of the input block against row q of the weight, plus the bias at q. -/
theorem pay4_apply (x0 x1 : FVec Ideal S1024x1024 .f32) (x2 : FVec Ideal S1024 .f32) (p q : Fin 1024) :
    Gen.k4_pay1 (F := Ideal) x0 x1 x2 (ix2 p q) = (∑ k : Fin 1024, x0 (ix2 p k) * x1 (ix2 q k)) + x2 (ix1 q) := by
  unfold Gen.k4_pay1
  rw [shapeCast_self]
  refine (addf_apply _ _ _).trans ?_
  refine congrArg₂ (· + ·) ?_ ?_
  · exact matmul_rows_zero_apply _ none _ _ p q
  · exact (broadcastTo_row_apply _ _ p q).trans (shapeCast_row_apply _ _ q)

/-- The body's value at (p, q) is the linear layer at an array index i as soon as row p of the input block is row i₀ of
    the array, row q of the weight block is row i₁ of the weight and the bias block at q is the bias at i₁. -/
theorem pay4_lin (a : A2.Idx → EReal) (w : Wt.Idx → EReal) (b : Bs.Idx → EReal)
    (x0 x1 : FVec Ideal S1024x1024 .f32) (x2 : FVec Ideal S1024 .f32) (i : A2.Idx) (p q : Fin 1024)
    (h0 : ∀ k : Fin 1024, x0 (ix2 p k) = a (ix2 (i 0) k))
    (h1 : ∀ k : Fin 1024, x1 (ix2 q k) = w (ix2 (i 1) k))
    (h2 : x2 (ix1 q) = b (ix1 (i 1))) :
    Gen.k4_pay1 (F := Ideal) x0 x1 x2 (ix2 p q) = linF a w b i := by
  rw [pay4_apply, h2]
  show _ = (∑ k : Fin 1024, a (ix2 (i 0) k) * w (ix2 (i 1) k)) + b (ix1 (i 1))
  refine congrArg (· + b (ix1 (i 1))) ?_
  exact Finset.sum_congr rfl fun k _ => by rw [h0, h1]

/-- The index maps over the grid: the input block moves with the output block along the rows and both start at column
    0; the weight and the bias blocks stay at the origin; point t's output block is block t. -/
theorem idx_facts4 : ∀ t : Fin cfg4.N, win4_0.index t (0 : Fin 2) = win4_3.index t (0 : Fin 2)
    ∧ win4_0.index t (1 : Fin 2) = 0 ∧ win4_1.index t (0 : Fin 2) = 0 ∧ win4_1.index t (1 : Fin 2) = 0
    ∧ win4_2.index t (0 : Fin 1) = 0 ∧ win4_3.index t (1 : Fin 2) = 0 ∧ win4_3.index t (0 : Fin 2) ≤ 7 :=
  (by decide +kernel : ∀ t : Fin grid4.N, _)

/-- What point t writes back is block t of the linear layer of the arrays as the region finds them. -/
theorem flushed4_eq (V : (c : Dev nD) → (b : Ref sig .tc) → Buf (Elt Ideal) ((c : Thread nD τ).loc b)) (c : Dev nD) (t : Fin cfg4.N) :
    (Gen.dat4 (F := Ideal) V c).flushed 3 t = ((cfg4.win 3).blk t).view.read (Elt Ideal) (linF (V c main_v10) (V c main_arg10) (V c main_arg11)) := by
  show (cfg4.win 3).cut (grid4.coords t) ((Gen.dat4 V c).after 3 t) = _
  rw [Gen.after4_3]
  unfold Gen.out4_3
  rw [View.canon_unit_zero zero_off2]
  simp only [View.ld_unit_zero (S := S1024x1024) zero_off2, View.ld_unit_zero (S := S1024) zero_off1]
  obtain ⟨e0, e1, e2, e3, e4, e5, e6⟩ := idx_facts4 t
  funext j
  obtain ⟨p, q, rfl⟩ : ∃ (p : Fin 1024) (q : Fin 1024), j = ix2 p q := ⟨j 0, j 1, eq_ix2 j⟩
  show Gen.k4_pay1 (F := Ideal) _ _ _ (ix2 p q) = linF _ _ _ (((cfg4.win 3).blk t).view.emb (ix2 p q))
  refine pay4_lin _ _ _ _ _ _ _ p q (fun k => ?_) (fun k => ?_) ?_
  · have h : ((cfg4.win 0).blk t).view.emb (ix2 p k) = ix2 (((cfg4.win 3).blk t).view.emb (ix2 p q) 0) k := by
      funext a; apply Fin.ext
      match a with
      | ⟨0, _⟩ => show win4_0.index t (0 : Fin 2) * 1024 + 1 * p.val = win4_3.index t (0 : Fin 2) * 1024 + 1 * p.val; omega
      | ⟨1, _⟩ => show win4_0.index t (1 : Fin 2) * 1024 + 1 * k.val = k.val; omega
    show V c main_v10 (((cfg4.win 0).blk t).view.emb (ix2 p k)) = _
    rw [h] <;> rfl
  · have h : ((cfg4.win 1).blk t).view.emb (ix2 q k) = ix2 (((cfg4.win 3).blk t).view.emb (ix2 p q) 1) k := by
      funext a; apply Fin.ext
      match a with
      | ⟨0, _⟩ => show win4_1.index t (0 : Fin 2) * 1024 + 1 * q.val = win4_3.index t (1 : Fin 2) * 1024 + 1 * q.val; omega
      | ⟨1, _⟩ => show win4_1.index t (1 : Fin 2) * 1024 + 1 * k.val = k.val; omega
    show V c main_arg10 (((cfg4.win 1).blk t).view.emb (ix2 q k)) = _
    rw [h] <;> rfl
  · have h : ((cfg4.win 2).blk t).view.emb (ix1 q) = ix1 (((cfg4.win 3).blk t).view.emb (ix2 p q) 1) := by
      funext a; apply Fin.ext
      match a with
      | ⟨0, _⟩ => show win4_2.index t (0 : Fin 1) * 1024 + 1 * q.val = win4_3.index t (1 : Fin 2) * 1024 + 1 * q.val; omega
    show V c main_arg11 (((cfg4.win 2).blk t).view.emb (ix1 q)) = _
    rw [h] <;> rfl

/-- An index of the output array is in point t's block iff each coordinate is in the block's range on its axis. -/
theorem mem_blk4 (t : Fin cfg4.N) (i : S8192x1024.Idx) :
    i ∈ ((cfg4.win 3).blk t).view.set ↔ ∀ a : Fin 2, win4_3.index t a * S1024x1024.size a ≤ (i a).val ∧ (i a).val < win4_3.index t a * S1024x1024.size a + S1024x1024.size a := by
  show i ∈ ((View.whole main_v11).slice (win4_3.rect t)).set ↔ _
  rw [View.set_slice_whole, Rect.mem_set_unit]
  exact Iff.rfl

/-- Every block of rows is some point's. -/
theorem idx_onto4 : ∀ q0 : Fin 8, ∃ t : Fin cfg4.N, win4_3.index t = ![q0.val, 0] :=
  (by decide +kernel : ∀ q0 : Fin 8, ∃ t : Fin grid4.N, win4_3.index t = ![q0.val, 0])

/-- The output blocks cover the array: row r lies in the block of point r / 1024. -/
theorem cover4 (i : S8192x1024.Idx) :
    ∃ t : Fin cfg4.N, (cfg4.win 3).flush t = true ∧ i ∈ ((cfg4.win 3).blk t).view.set := by
  have hi0 : (i 0).val < 8192 := (i 0).isLt
  have hi1 : (i 1).val < 1024 := (i 1).isLt
  obtain ⟨t, ht⟩ := idx_onto4 ⟨(i 0).val / 1024, by omega⟩
  have q0 : win4_3.index t (0 : Fin 2) = (i 0).val / 1024 := congrFun ht 0
  have q1 : win4_3.index t (1 : Fin 2) = 0 := congrFun ht 1
  refine ⟨t, Gen.flush4_3 t, ?_⟩
  rw [mem_blk4]
  intro a
  match a with
  | ⟨0, _⟩ => show win4_3.index t (0 : Fin 2) * 1024 ≤ (i 0).val ∧ (i 0).val < win4_3.index t (0 : Fin 2) * 1024 + 1024; omega
  | ⟨1, _⟩ => show win4_3.index t (1 : Fin 2) * 1024 ≤ (i 1).val ∧ (i 1).val < win4_3.index t (1 : Fin 2) * 1024 + 1024; omega

/-- The output array of the region: the linear layer of the arrays as the region finds them. -/
theorem lin_final4 (V : (c : Dev nD) → (b : Ref sig .tc) → Buf (Elt Ideal) ((c : Thread nD τ).loc b)) (c : Dev nD) :
    (Gen.dat4 (F := Ideal) V c).arrAt 3 cfg4.N = linF (V c main_v10) (V c main_arg10) (V c main_arg11) :=
  (Gen.dat4 (F := Ideal) V c).arrAt_eq_of_cover 3 (linF (V c main_v10) (V c main_arg10) (V c main_arg11))
    (fun t _ => flushed4_eq V c t) cover4

end Cert.KernelIdeal.LinValue

end
-- ==== Proof.AttnRegion.lean ====
/-
  The value of the attention stage's body on one block, over the extended reals.

  The body loads a block of 512 query rows, all 2048 key rows and value rows of one batch element and that element's
  mask row, and computes sixteen heads one after the other. Head `h` takes the 64 columns from `64 h` of the three
  matrices: the scores of a query row against every key row are the dot products over those columns, times 1/32,
  plus a row that is -∞ where the mask word is zero and 0 elsewhere; each row of scores is exponentiated after
  subtracting its maximum and divided by its sum; the resulting weights multiply the head's value columns. The
  sixteen 512×64 results sit side by side in the stored 512×1024 block.

  Here: one head as a function of its four operands and its value at an index (`headCtx_apply`); the stored
  value as the concatenation of sixteen such heads (equalities that hold by unfolding); a concatenation of sixteen
  equal pieces, a column slice, and the loaded blocks read at an index; and the block the body leaves, at row `r` and
  column `c`, as the weighted sum the specification states (`out3_4_apply`).
-/
import proofs.«170359_j56186762166614_2_alg».proof.Proof.Gen.KernelIdeal.Frame
import proofs.«170359_j56186762166614_2_alg».proof.Proof.Spec
import proofs.«170359_j56186762166614_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AttnValue

open Cert.KernelIdeal Cert.KernelIdeal.Gen Cert.Mha Cert.KernelBody
open Idealize.ShloMosaic Idealize.ShloMosaic.ValueIdx Idealize.ShloMosaic.TcCoe
open Idealize.SL Idealize.SL.Sem
open Idealize.ShloMosaic.Pipeline (Dat Cfg Window BodyObligation cellOf)

/-! ## Three shape operations at an index -/

section Shapes
variable {α : Type} {a b : ℕ}

/-- Entry `(r, 0)` of the column cast of a vector is the vector's entry `r`: both sit at row-major position `r`. -/
theorem shapeCast_col_apply (x : (⟨1, ![a]⟩ : Shape).Idx → α) (h : (⟨1, ![a]⟩ : Shape).ShapeCasts ⟨2, ![a, 1]⟩) (r : Fin a) :
    shapeCast ⟨2, ![a, 1]⟩ x h (ix2 r (0 : Fin 1)) = x (ix1 r) :=
  shapeCast_apply x h (ix2 r (0 : Fin 1)) (ix1 r) (by
    rw [Shape.rowMajor_val_one, Shape.rowMajor_val_two]
    show r.val = r.val * 1 + 0
    omega)

/-- Entry `(r, k)` of a column broadcast along the rows is the column's entry `(r, 0)`. -/
theorem broadcastTo_col_apply (x : (⟨2, ![a, 1]⟩ : Shape).Idx → α) (h : (⟨2, ![a, 1]⟩ : Shape).Broadcasts ⟨2, ![a, b]⟩)
    (r : Fin a) (k : Fin b) : broadcastTo ⟨2, ![a, b]⟩ x h (ix2 r k) = x (ix2 r (0 : Fin 1)) :=
  broadcastTo_apply x h (ix2 r k) (ix2 r (0 : Fin 1)) (fun c => by
    match c with
    | ⟨0, _⟩ =>
      show r.val = if a = 1 then 0 else r.val
      have := r.isLt
      split <;> omega
    | ⟨1, _⟩ => rfl)

end Shapes

/-- The product of an m×k matrix by the transpose of an n×k matrix (contracting axis 1 of both) accumulated into the
    zero splat, read at `(r, c)`: the dot product of row `r` of the left with row `c` of the right. -/
theorem matmul_nt_zero_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (r : Fin m) (c : Fin n) :
    matmul (⟨[1], [1], [0], [0], [], [], w⟩ : DotDims _ _ _) prec A B
        (constant (F := Ideal) ⟨2, ![m, n]⟩ .f32 0x00000000#32) (ix2 r c)
      = ∑ i : Fin k, A (ix2 r i) * B (ix2 c i) := by
  show FloatOps.matmul _ prec A B (constant (F := Ideal) ⟨2, ![m, n]⟩ .f32 0x00000000#32) (ix2 r c) = _
  rw [Ideal.matmul_constant_zero_apply,
    ← Equiv.sum_comp (contrEquiv1 (⟨[1], [1], [0], [0], [], [], w⟩ : DotDims _ _ _) k rfl rfl).symm]
  refine Finset.sum_congr rfl fun i _ => ?_
  have c2 := contrEquiv1_symm_val
    (⟨[1], [1], [0], [0], [], [], w⟩ : DotDims ⟨2, ![m, k]⟩ ⟨2, ![n, k]⟩ ⟨2, ![m, n]⟩) k rfl rfl i
  have l2 : (⟨[1], [1], [0], [0], [], [], w⟩ : DotDims ⟨2, ![m, k]⟩ ⟨2, ![n, k]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 r c)
      ((contrEquiv1 _ k rfl rfl).symm i) = ix2 c i := by
    funext ax; apply Fin.ext
    match ax with
    | ⟨0, _⟩ => simp [DotDims.rhsIdx]; rfl
    | ⟨1, _⟩ => simp [DotDims.rhsIdx]; exact c2
  rw [l2, r2]

/-! ## One head -/

section Head
variable {F : FTy → Type} [FloatOps F]

/-- The scores of one head: the dot products of the query rows with the key rows, times the scale word, plus the mask row. -/
def scoreMat (q : FVec F S512x64 .bf16) (k : FVec F S2048x64 .bf16) (nm : FVec F S1x2048 .f32) : FVec F S512x2048 .f32 :=
  addf (mulf (matmul dot_S512x64_S2048x64_S512x2048_1_1_0_0_n_n none q k (constant S512x2048 .f32 0x00000000#32))
      (broadcast S512x2048 (Scalar.ofBits .f32 0x3D000000#32)))
    (broadcastTo S512x2048 nm broadcasts_S1x2048_S512x2048)

/-- Each row's maximum, repeated along the row. -/
def rowMax (s : FVec F S512x2048 .f32) : FVec F S512x2048 .f32 :=
  broadcastTo S512x2048
    (shapeCast S512x1 (multiReduction .maximumf [1] S512 s 0xFF800000#32 reduces_S512x2048_S512 (.inl rfl) rfl)
      shapeCasts_S512_S512x1) broadcasts_S512x1_S512x2048

/-- Each row's sum, repeated along the row. -/
def rowSum (p : FVec F S512x2048 .f32) : FVec F S512x2048 .f32 :=
  broadcastTo S512x2048
    (shapeCast S512x1 (multiReduction .add [1] S512 p 0x00000000#32 reduces_S512x2048_S512 (.inl rfl) rfl)
      shapeCasts_S512_S512x1) broadcasts_S512x1_S512x2048

/-- The tail of a head from the differences to the row maxima: exponentials, normalised, applied to the values. -/
def headTail (v : FVec F S2048x64 .bf16) (d : FVec F S512x2048 .f32) : FVec F S512x64 .f32 :=
  matmul dot_S512x2048_S2048x64_S512x64_1_0_0_1_n_n none
    (truncf .bf16 (divf (exp d) (rowSum (exp d))) bitsLt_bf16_f32) v (constant S512x64 .f32 0x00000000#32)

/-- The differences of the scores to their row maxima. -/
def headDiff (q : FVec F S512x64 .bf16) (k : FVec F S2048x64 .bf16) (nm : FVec F S1x2048 .f32) : FVec F S512x2048 .f32 :=
  subf (scoreMat q k nm) (rowMax (scoreMat q k nm))

/-- One head's result. -/
def headCtx (q : FVec F S512x64 .bf16) (k v : FVec F S2048x64 .bf16) (nm : FVec F S1x2048 .f32) : FVec F S512x64 .f32 :=
  headTail v (headDiff q k nm)

end Head

theorem scoreMat_apply (q : FVec Ideal S512x64 .bf16) (k : FVec Ideal S2048x64 .bf16) (nm : FVec Ideal S1x2048 .f32)
    (r : Fin 512) (kk : Fin 2048) :
    scoreMat q k nm (ix2 r kk) = (∑ e : Fin 64, q (ix2 r e) * k (ix2 kk e)) * scale + nm (ix2 (0 : Fin 1) kk) := by
  unfold scoreMat
  rw [addf_apply, mulf_apply, broadcast_apply]
  have h1 := matmul_nt_zero_apply Facts₀.dot_S512x64_S2048x64_S512x2048_1_1_0_0_n_n_wf none q k r kk
  have h2 := broadcastTo_row_apply nm broadcasts_S1x2048_S512x2048 r kk
  have h3 : (Scalar.ofBits (F := Ideal) .f32 0x3D000000#32) = scale := ofBits_scale
  rw [h3, h2]
  exact congrArg (fun x => x * scale + nm (ix2 (0 : Fin 1) kk)) h1

theorem lift_row (h : S512x2048.Reduces [1] S512) (r : Fin 512) (kk : Fin (S512x2048.size 1)) :
    h.lift (ix1 r) kk = (ix2 r (kk : Fin 2048) : S512x2048.Idx) := by
  funext c; apply Fin.ext
  show Shape.Reduces.liftVal h (ix1 r) kk.val c = _
  match c with
  | ⟨0, _⟩ => simp [Shape.Reduces.liftVal]
  | ⟨1, _⟩ => simp [Shape.Reduces.liftVal]

theorem rowMax_apply (s : FVec Ideal S512x2048 .f32) (r : Fin 512) (kk : Fin 2048) :
    rowMax s (ix2 r kk) = (Finset.univ : Finset (Fin 2048)).fold max ⊥ (fun k' => s (ix2 r k')) := by
  unfold rowMax
  rw [broadcastTo_col_apply, shapeCast_col_apply]
  refine (Ideal.multiReduction_maximumf_single s _ Gen.reduces_S512x2048_S512 _ _ (ix1 r)).trans ?_
  show (Finset.univ : Finset (Fin 2048)).fold max (Ideal.ofBits .f32 0xFF800000#32) _ = _
  rw [ofBits_ninf]
  congr 1
  funext k'
  exact congrArg s (lift_row _ r k')

theorem rowSum_apply (p : FVec Ideal S512x2048 .f32) (r : Fin 512) (kk : Fin 2048) :
    rowSum p (ix2 r kk) = ∑ k' : Fin 2048, p (ix2 r k') := by
  unfold rowSum
  rw [broadcastTo_col_apply, shapeCast_col_apply]
  refine (Ideal.multiReduction_add_single p _ Gen.reduces_S512x2048_S512 _ _ (ix1 r)).trans ?_
  show ∑ k' : Fin 2048, _ = _
  refine Finset.sum_congr rfl fun k' _ => ?_
  exact congrArg p (lift_row _ r k')

/-- One head's result at row `r`, column `d`: the scores of row `r` turned into weights and applied to column `d` of
    the values. -/
theorem headCtx_apply (q : FVec Ideal S512x64 .bf16) (k v : FVec Ideal S2048x64 .bf16) (nm : FVec Ideal S1x2048 .f32)
    (r : Fin 512) (d : Fin 64) :
    headCtx q k v nm (ix2 r d)
      = softSum (fun kk => (∑ e : Fin 64, q (ix2 r e) * k (ix2 kk e)) * scale + nm (ix2 (0 : Fin 1) kk))
          (fun kk => v (ix2 kk d)) := by
  unfold headCtx headTail
  refine (matmul_plain_zero_apply Facts₀.dot_S512x2048_S2048x64_S512x64_1_0_0_1_n_n_wf none _ v r d).trans ?_
  unfold softSum
  have hd : ∀ k' : Fin 2048, headDiff q k nm (ix2 r k')
      = ((∑ e : Fin 64, q (ix2 r e) * k (ix2 k' e)) * scale + nm (ix2 (0 : Fin 1) k'))
        - (Finset.univ : Finset (Fin 2048)).fold max ⊥
            (fun kk => (∑ e : Fin 64, q (ix2 r e) * k (ix2 kk e)) * scale + nm (ix2 (0 : Fin 1) kk)) := by
    intro k'
    unfold headDiff
    rw [subf_apply, rowMax_apply]
    simp only [scoreMat_apply]
  refine Finset.sum_congr rfl fun kk _ => ?_
  rw [truncf_apply, divf_apply, rowSum_apply]
  show Ideal.div (Ideal.exp (headDiff q k nm (ix2 r kk))) (∑ k' : Fin 2048, Ideal.exp (headDiff q k nm (ix2 r k'))) * _ = _
  simp only [hd]

/-! ## The stored value as sixteen heads side by side -/

section Payload
variable {F : FTy → Type} [FloatOps F]

/-- Head number `off / 64`: the head's operands are the 64 columns from `off` of the queries, keys and values. -/
def hd (off : ℕ) (hq : S512x1024.Slices ![0, off] S512x64) (hk : S2048x1024.Slices ![0, off] S2048x64)
    (Q : FVec F S512x1024 .bf16) (K V : FVec F S2048x1024 .bf16) (NM : FVec F S1x2048 .f32) : FVec F S512x64 .f32 :=
  headCtx (extractStridedSlice S512x64 ![0, off] Q hq) (extractStridedSlice S2048x64 ![0, off] K hk)
    (extractStridedSlice S2048x64 ![0, off] V hk) NM

variable (v0 : Vec F S1x512x1024 .f32) (v3 v6 : Vec F S1x2048x1024 .f32) (v9 : Vec F S1x1x2048 .i32)
variable (Q : FVec F S512x1024 .bf16) (K V : FVec F S2048x1024 .bf16) (NM : FVec F S1x2048 .f32)

theorem head0_eq : k3_pay6 v0 v3 v6 v9 = hd 0 slices_S512x1024_o0_0_S512x64 slices_S2048x1024_o0_0_S2048x64 (k3_pay2 v0) (k3_pay3 v3) (k3_pay4 v6) (k3_pay5 v9) := rfl
theorem head1_eq : k3_pay10 NM (k3_pay7 v0) (k3_pay8 v3) (k3_pay9 v6) = hd 64 slices_S512x1024_o0_64_S512x64 slices_S2048x1024_o0_64_S2048x64 (k3_pay2 v0) (k3_pay3 v3) (k3_pay4 v6) NM := rfl
theorem head2_eq : k3_pay11 Q K V NM = hd 128 slices_S512x1024_o0_128_S512x64 slices_S2048x1024_o0_128_S2048x64 Q K V NM := rfl
theorem head3_eq : k3_pay14 (k3_pay12 V) (k3_pay13 Q K NM) = hd 192 slices_S512x1024_o0_192_S512x64 slices_S2048x1024_o0_192_S2048x64 Q K V NM := rfl
theorem head4_eq : k3_pay15 Q K V NM = hd 256 slices_S512x1024_o0_256_S512x64 slices_S2048x1024_o0_256_S2048x64 Q K V NM := rfl
theorem head5_eq : k3_pay16 Q K V NM = hd 320 slices_S512x1024_o0_320_S512x64 slices_S2048x1024_o0_320_S2048x64 Q K V NM := rfl
theorem head6_eq : k3_pay20 NM (k3_pay17 Q) (k3_pay18 K) (k3_pay19 V) = hd 384 slices_S512x1024_o0_384_S512x64 slices_S2048x1024_o0_384_S2048x64 Q K V NM := rfl
theorem head7_eq : k3_pay21 Q K V NM = hd 448 slices_S512x1024_o0_448_S512x64 slices_S2048x1024_o0_448_S2048x64 Q K V NM := rfl
theorem head8_eq : k3_pay24 (k3_pay22 V) (k3_pay23 Q K NM) = hd 512 slices_S512x1024_o0_512_S512x64 slices_S2048x1024_o0_512_S2048x64 Q K V NM := rfl
theorem head9_eq : k3_pay25 Q K V NM = hd 576 slices_S512x1024_o0_576_S512x64 slices_S2048x1024_o0_576_S2048x64 Q K V NM := rfl
theorem head10_eq : k3_pay26 Q K V NM = hd 640 slices_S512x1024_o0_640_S512x64 slices_S2048x1024_o0_640_S2048x64 Q K V NM := rfl
theorem head11_eq : k3_pay30 NM (k3_pay27 Q) (k3_pay28 K) (k3_pay29 V) = hd 704 slices_S512x1024_o0_704_S512x64 slices_S2048x1024_o0_704_S2048x64 Q K V NM := rfl
theorem head12_eq : k3_pay31 Q K V NM = hd 768 slices_S512x1024_o0_768_S512x64 slices_S2048x1024_o0_768_S2048x64 Q K V NM := rfl

/-- The concatenation the body stores, its last three heads spelt out. -/
theorem cat_eq (h0 h1 h2 h3 h4 h5 h6 h7 h8 h9 h10 h11 h12 : FVec F S512x64 .f32) :
    k3_pay34 Q K V NM h0 h1 h2 h3 h4 h5 h6 h7 h8 h9 h10 h11 h12 (k3_pay32 V) (k3_pay33 Q K NM)
      = concatenate S512x1024 1 [⟨S512x64, h0⟩, ⟨S512x64, h1⟩, ⟨S512x64, h2⟩, ⟨S512x64, h3⟩, ⟨S512x64, h4⟩, ⟨S512x64, h5⟩,
          ⟨S512x64, h6⟩, ⟨S512x64, h7⟩, ⟨S512x64, h8⟩, ⟨S512x64, h9⟩, ⟨S512x64, h10⟩, ⟨S512x64, h11⟩, ⟨S512x64, h12⟩,
          ⟨S512x64, hd 832 slices_S512x1024_o0_832_S512x64 slices_S2048x1024_o0_832_S2048x64 Q K V NM⟩, ⟨S512x64, hd 896 slices_S512x1024_o0_896_S512x64 slices_S2048x1024_o0_896_S2048x64 Q K V NM⟩, ⟨S512x64, hd 960 slices_S512x1024_o0_960_S512x64 slices_S2048x1024_o0_960_S2048x64 Q K V NM⟩]
          concatenates_S512x64_S512x64_S512x64_S512x64_S512x64_S512x64_S512x64_S512x64_S512x64_S512x64_S512x64_S512x64_S512x64_S512x64_S512x64_S512x64_S512x1024_d1 := rfl

end Payload

/-! ## The heads at an index -/

/-- The weighted sum head `n` puts at row `r`, column `d` of its 64 columns. -/
def headVal (Q : FVec Ideal S512x1024 .bf16) (K V : FVec Ideal S2048x1024 .bf16) (NM : FVec Ideal S1x2048 .f32)
    (n : Fin 16) (r : Fin 512) (d : Fin 64) : EReal :=
  softSum (fun kk => (∑ e : Fin 64, Q (ix2 r (col n e)) * K (ix2 kk (col n e))) * scale + NM (ix2 (0 : Fin 1) kk))
    (fun kk => V (ix2 kk (col n d)))

/-- The 64 columns from `64 n` of a matrix with 1024 columns, read at `(r, e)`. -/
theorem slice_apply {α : Type} {m : ℕ} (off : ℕ) (n : Fin 16) (hoff : off = 64 * n.val)
    (X : (⟨2, ![m, 1024]⟩ : Shape).Idx → α) (h : (⟨2, ![m, 1024]⟩ : Shape).Slices ![0, off] ⟨2, ![m, 64]⟩)
    (r : Fin m) (e : Fin 64) :
    extractStridedSlice ⟨2, ![m, 64]⟩ ![0, off] X h (ix2 r e) = X (ix2 r (col n e)) :=
  extractStridedSlice_apply ![0, off] X h (ix2 r e) (ix2 r (col n e)) (fun a => by
    match a with
    | ⟨0, _⟩ => show r.val = 0 + r.val; omega
    | ⟨1, _⟩ => show 64 * n.val + e.val = off + e.val; omega)

theorem hd_apply (off : ℕ) (n : Fin 16) (hoff : off = 64 * n.val)
    (hq : S512x1024.Slices ![0, off] S512x64) (hk : S2048x1024.Slices ![0, off] S2048x64)
    (Q : FVec Ideal S512x1024 .bf16) (K V : FVec Ideal S2048x1024 .bf16) (NM : FVec Ideal S1x2048 .f32)
    (r : Fin 512) (d : Fin 64) : hd off hq hk Q K V NM (ix2 r d) = headVal Q K V NM n r d := by
  unfold hd headVal
  rw [headCtx_apply]
  simp only [slice_apply off n hoff]

/-- Sixteen 64-column pieces side by side, read at `(r, c)`: piece `c / 64` at `(r, c % 64)`. -/
theorem concat16 {α : Type} (x0 x1 x2 x3 x4 x5 x6 x7 x8 x9 x10 x11 x12 x13 x14 x15 : S512x64.Idx → α)
    (h : Shape.Concatenates (([⟨S512x64, x0⟩, ⟨S512x64, x1⟩, ⟨S512x64, x2⟩, ⟨S512x64, x3⟩, ⟨S512x64, x4⟩, ⟨S512x64, x5⟩, ⟨S512x64, x6⟩, ⟨S512x64, x7⟩, ⟨S512x64, x8⟩, ⟨S512x64, x9⟩, ⟨S512x64, x10⟩, ⟨S512x64, x11⟩, ⟨S512x64, x12⟩, ⟨S512x64, x13⟩, ⟨S512x64, x14⟩, ⟨S512x64, x15⟩] : List ((s : Shape) × (s.Idx → α))).map (·.1)) S512x1024 1)
    (r : Fin 512) (c : Fin 1024) :
    concatenate S512x1024 1 [⟨S512x64, x0⟩, ⟨S512x64, x1⟩, ⟨S512x64, x2⟩, ⟨S512x64, x3⟩, ⟨S512x64, x4⟩, ⟨S512x64, x5⟩, ⟨S512x64, x6⟩, ⟨S512x64, x7⟩, ⟨S512x64, x8⟩, ⟨S512x64, x9⟩, ⟨S512x64, x10⟩, ⟨S512x64, x11⟩, ⟨S512x64, x12⟩, ⟨S512x64, x13⟩, ⟨S512x64, x14⟩, ⟨S512x64, x15⟩] h (ix2 r c)
      = (![x0, x1, x2, x3, x4, x5, x6, x7, x8, x9, x10, x11, x12, x13, x14, x15] : Fin 16 → S512x64.Idx → α) (headOf c) (ix2 r (inHead c)) := by
  have key : ∀ (xs : List ((s : Shape) × (s.Idx → α)))
      (e : xs = List.ofFn (fun n : Fin 16 => (⟨S512x64, (![x0, x1, x2, x3, x4, x5, x6, x7, x8, x9, x10, x11, x12, x13, x14, x15] : Fin 16 → S512x64.Idx → α) n⟩ : (s : Shape) × (s.Idx → α))))
      (h : Shape.Concatenates (xs.map (·.1)) S512x1024 1),
      concatenate S512x1024 1 xs h (ix2 r c)
        = (![x0, x1, x2, x3, x4, x5, x6, x7, x8, x9, x10, x11, x12, x13, x14, x15] : Fin 16 → S512x64.Idx → α) (headOf c) (ix2 r (inHead c)) := by
    intro xs e; subst e; intro h
    exact concatenate_ofFn_apply (t := S512x1024) (s₁ := S512x64) (1 : Fin 2)
      (![x0, x1, x2, x3, x4, x5, x6, x7, x8, x9, x10, x11, x12, x13, x14, x15] : Fin 16 → S512x64.Idx → α) h rfl 64 rfl (ix2 r c) (headOf c) rfl (ix2 r (inHead c)) rfl
      (fun b hb => by
        match b with
        | ⟨0, _⟩ => rfl
        | ⟨1, _⟩ => exact absurd rfl hb)
  exact key _ rfl h

theorem heads16 (Q : FVec Ideal S512x1024 .bf16) (K V : FVec Ideal S2048x1024 .bf16) (NM : FVec Ideal S1x2048 .f32)
    (n : Fin 16) (r : Fin 512) (d : Fin 64) :
    (![hd 0 slices_S512x1024_o0_0_S512x64 slices_S2048x1024_o0_0_S2048x64 Q K V NM,
        hd 64 slices_S512x1024_o0_64_S512x64 slices_S2048x1024_o0_64_S2048x64 Q K V NM,
        hd 128 slices_S512x1024_o0_128_S512x64 slices_S2048x1024_o0_128_S2048x64 Q K V NM,
        hd 192 slices_S512x1024_o0_192_S512x64 slices_S2048x1024_o0_192_S2048x64 Q K V NM,
        hd 256 slices_S512x1024_o0_256_S512x64 slices_S2048x1024_o0_256_S2048x64 Q K V NM,
        hd 320 slices_S512x1024_o0_320_S512x64 slices_S2048x1024_o0_320_S2048x64 Q K V NM,
        hd 384 slices_S512x1024_o0_384_S512x64 slices_S2048x1024_o0_384_S2048x64 Q K V NM,
        hd 448 slices_S512x1024_o0_448_S512x64 slices_S2048x1024_o0_448_S2048x64 Q K V NM,
        hd 512 slices_S512x1024_o0_512_S512x64 slices_S2048x1024_o0_512_S2048x64 Q K V NM,
        hd 576 slices_S512x1024_o0_576_S512x64 slices_S2048x1024_o0_576_S2048x64 Q K V NM,
        hd 640 slices_S512x1024_o0_640_S512x64 slices_S2048x1024_o0_640_S2048x64 Q K V NM,
        hd 704 slices_S512x1024_o0_704_S512x64 slices_S2048x1024_o0_704_S2048x64 Q K V NM,
        hd 768 slices_S512x1024_o0_768_S512x64 slices_S2048x1024_o0_768_S2048x64 Q K V NM,
        hd 832 slices_S512x1024_o0_832_S512x64 slices_S2048x1024_o0_832_S2048x64 Q K V NM,
        hd 896 slices_S512x1024_o0_896_S512x64 slices_S2048x1024_o0_896_S2048x64 Q K V NM,
        hd 960 slices_S512x1024_o0_960_S512x64 slices_S2048x1024_o0_960_S2048x64 Q K V NM] : Fin 16 → S512x64.Idx → EReal) n (ix2 r d)
      = headVal Q K V NM n r d := by
  match n with
  | ⟨0, _⟩ => exact hd_apply 0 ⟨0, by decide⟩ rfl _ _ Q K V NM r d
  | ⟨1, _⟩ => exact hd_apply 64 ⟨1, by decide⟩ rfl _ _ Q K V NM r d
  | ⟨2, _⟩ => exact hd_apply 128 ⟨2, by decide⟩ rfl _ _ Q K V NM r d
  | ⟨3, _⟩ => exact hd_apply 192 ⟨3, by decide⟩ rfl _ _ Q K V NM r d
  | ⟨4, _⟩ => exact hd_apply 256 ⟨4, by decide⟩ rfl _ _ Q K V NM r d
  | ⟨5, _⟩ => exact hd_apply 320 ⟨5, by decide⟩ rfl _ _ Q K V NM r d
  | ⟨6, _⟩ => exact hd_apply 384 ⟨6, by decide⟩ rfl _ _ Q K V NM r d
  | ⟨7, _⟩ => exact hd_apply 448 ⟨7, by decide⟩ rfl _ _ Q K V NM r d
  | ⟨8, _⟩ => exact hd_apply 512 ⟨8, by decide⟩ rfl _ _ Q K V NM r d
  | ⟨9, _⟩ => exact hd_apply 576 ⟨9, by decide⟩ rfl _ _ Q K V NM r d
  | ⟨10, _⟩ => exact hd_apply 640 ⟨10, by decide⟩ rfl _ _ Q K V NM r d
  | ⟨11, _⟩ => exact hd_apply 704 ⟨11, by decide⟩ rfl _ _ Q K V NM r d
  | ⟨12, _⟩ => exact hd_apply 768 ⟨12, by decide⟩ rfl _ _ Q K V NM r d
  | ⟨13, _⟩ => exact hd_apply 832 ⟨13, by decide⟩ rfl _ _ Q K V NM r d
  | ⟨14, _⟩ => exact hd_apply 896 ⟨14, by decide⟩ rfl _ _ Q K V NM r d
  | ⟨15, _⟩ => exact hd_apply 960 ⟨15, by decide⟩ rfl _ _ Q K V NM r d
  | ⟨_ + 16, h⟩ => exact absurd h (by omega)

/-! ## The blocks the body loads, at an index -/

theorem q_apply (x : Vec Ideal S1x512x1024 .f32) (r : Fin 512) (c : Fin 1024) :
    k3_pay2 x (ix2 r c) = x (ix3 (0 : Fin 1) r c) := by
  unfold k3_pay2
  exact shapeCast_1ab_ab_apply x _ r c

theorem k_apply (x : Vec Ideal S1x2048x1024 .f32) (r : Fin 2048) (c : Fin 1024) :
    k3_pay3 x (ix2 r c) = x (ix3 (0 : Fin 1) r c) := by
  unfold k3_pay3
  exact shapeCast_1ab_ab_apply x _ r c

theorem v_apply (x : Vec Ideal S1x2048x1024 .f32) (r : Fin 2048) (c : Fin 1024) :
    k3_pay4 x (ix2 r c) = x (ix3 (0 : Fin 1) r c) := by
  unfold k3_pay4
  exact shapeCast_1ab_ab_apply x _ r c

theorem nm_apply (x : Vec Ideal S1x1x2048 .i32) (kk : Fin 2048) :
    k3_pay5 x (ix2 (0 : Fin 1) kk)
      = Scalar.select (IntOp.cmpi .eq (x (ix3 (0 : Fin 1) (0 : Fin 1) kk)) 0#32)
          (Ideal.ofBits .f32 0xFF800000#32) (Ideal.ofBits .f32 0x00000000#32) := by
  unfold k3_pay5
  show Scalar.select (IntOp.cmpi .eq (shapeCast S1x2048 x _ (ix2 (0 : Fin 1) kk)) 0#32) _ _ = _
  rw [shapeCast_1ab_ab_apply]
  rfl

/-- The value the body stores at row `r`, column `c` of its block, from the four blocks it loads. -/
def blkVal (x0 : Vec Ideal S1x512x1024 .f32) (x1 x2 : Vec Ideal S1x2048x1024 .f32) (x3 : Vec Ideal S1x1x2048 .i32)
    (r : Fin 512) (c : Fin 1024) : EReal :=
  softSum (fun kk => Scalar.select (IntOp.cmpi .eq (x3 (ix3 (0 : Fin 1) (0 : Fin 1) kk)) 0#32) (⊥ : EReal)
      ((∑ e : Fin 64, x0 (ix3 (0 : Fin 1) r (col (headOf c) e)) * x1 (ix3 (0 : Fin 1) kk (col (headOf c) e))) * scale))
    (fun kk => x2 (ix3 (0 : Fin 1) kk c))

theorem headVal_blocks (x0 : Vec Ideal S1x512x1024 .f32) (x1 x2 : Vec Ideal S1x2048x1024 .f32) (x3 : Vec Ideal S1x1x2048 .i32)
    (r : Fin 512) (c : Fin 1024) :
    headVal (k3_pay2 x0) (k3_pay3 x1) (k3_pay4 x2) (k3_pay5 x3) (headOf c) r (inHead c) = blkVal x0 x1 x2 x3 r c := by
  unfold headVal blkVal
  simp only [q_apply, k_apply, v_apply, nm_apply, add_mask, col_headOf_inHead]

/-! ## The stored block at an index -/

/-- The body's stored value as one term of the four loaded blocks. -/
def pay (y0 : Vec Ideal S1x512x1024 .f32) (y1 y2 : Vec Ideal S1x2048x1024 .f32) (y3 : Vec Ideal S1x1x2048 .i32) :
    FVec Ideal S1x512x1024 .f32 :=
  k3_pay1 (k3_pay34 (k3_pay2 y0) (k3_pay3 y1) (k3_pay4 y2) (k3_pay5 y3) (k3_pay6 y0 y1 y2 y3) (k3_pay10 (k3_pay5 y3) (k3_pay7 y0) (k3_pay8 y1) (k3_pay9 y2)) (k3_pay11 (k3_pay2 y0) (k3_pay3 y1) (k3_pay4 y2) (k3_pay5 y3)) (k3_pay14 (k3_pay12 (k3_pay4 y2)) (k3_pay13 (k3_pay2 y0) (k3_pay3 y1) (k3_pay5 y3))) (k3_pay15 (k3_pay2 y0) (k3_pay3 y1) (k3_pay4 y2) (k3_pay5 y3)) (k3_pay16 (k3_pay2 y0) (k3_pay3 y1) (k3_pay4 y2) (k3_pay5 y3)) (k3_pay20 (k3_pay5 y3) (k3_pay17 (k3_pay2 y0)) (k3_pay18 (k3_pay3 y1)) (k3_pay19 (k3_pay4 y2))) (k3_pay21 (k3_pay2 y0) (k3_pay3 y1) (k3_pay4 y2) (k3_pay5 y3)) (k3_pay24 (k3_pay22 (k3_pay4 y2)) (k3_pay23 (k3_pay2 y0) (k3_pay3 y1) (k3_pay5 y3))) (k3_pay25 (k3_pay2 y0) (k3_pay3 y1) (k3_pay4 y2) (k3_pay5 y3)) (k3_pay26 (k3_pay2 y0) (k3_pay3 y1) (k3_pay4 y2) (k3_pay5 y3)) (k3_pay30 (k3_pay5 y3) (k3_pay27 (k3_pay2 y0)) (k3_pay28 (k3_pay3 y1)) (k3_pay29 (k3_pay4 y2))) (k3_pay31 (k3_pay2 y0) (k3_pay3 y1) (k3_pay4 y2) (k3_pay5 y3)) (k3_pay32 (k3_pay4 y2)) (k3_pay33 (k3_pay2 y0) (k3_pay3 y1) (k3_pay5 y3)))

theorem pay_apply (y0 : Vec Ideal S1x512x1024 .f32) (y1 y2 : Vec Ideal S1x2048x1024 .f32) (y3 : Vec Ideal S1x1x2048 .i32)
    (u : Fin 1) (r : Fin 512) (c : Fin 1024) : pay y0 y1 y2 y3 (ix3 u r c) = blkVal y0 y1 y2 y3 r c := by
  unfold pay
  rw [head0_eq, head1_eq, head2_eq, head3_eq, head4_eq, head5_eq, head6_eq, head7_eq, head8_eq, head9_eq, head10_eq,
    head11_eq, head12_eq, cat_eq]
  unfold k3_pay1
  rw [shapeCast_ab_1ab_apply, concat16, heads16, headVal_blocks]

/-! ## What the body leaves in the output block -/

theorem zeros3 : (![0, 0, 0] : Fin 3 → Nat) = fun _ => 0 := funext fun a => by fin_cases a <;> rfl

/-- The output block after the body, at row `r` and column `c`: head `c / 64`'s weights of query row `r` (scores
    against every key row over the head's 64 columns, scaled, -∞ where the mask word is zero) applied to column `c`
    of the values. -/
theorem out3_4_apply : ∀ (x0 : Vec Ideal S1x512x1024 .f32) (x1 x2 : Vec Ideal S1x2048x1024 .f32) (x3 : Vec Ideal S1x1x2048 .i32) (r : Fin 512) (c : Fin 1024),
    Gen.out3_4 (F := Ideal) x0 x1 x2 x3 (ix3 (0 : Fin 1) r c)
      = softSum (fun kk => Scalar.select (IntOp.cmpi .eq (x3 (ix3 (0 : Fin 1) (0 : Fin 1) kk)) 0#32) (⊥ : EReal)
            ((∑ e : Fin 64, x0 (ix3 (0 : Fin 1) r (col (headOf c) e)) * x1 (ix3 (0 : Fin 1) kk (col (headOf c) e))) * scale))
          (fun kk => x2 (ix3 (0 : Fin 1) kk c)) := by
  intro x0 x1 x2 x3 r c
  unfold out3_4
  rw [View.canon_unit_zero zeros3]
  simp only [View.ld_unit_zero (S := S1x512x1024) zeros3, View.ld_unit_zero (S := S1x2048x1024) zeros3,
    View.ld_unit_zero (S := S1x1x2048) zeros3]
  exact pay_apply x0 x1 x2 x3 0 r c

end Cert.KernelIdeal.AttnValue

end
-- ==== Proof.AttnBlocks.lean ====
/-
  The attention region, from blocks to the array: every grid point (b, qi) writes back rows 512·qi … 512·qi + 511 of
  batch b of the attention stage of the arrays the region finds, and the sixteen blocks cover the output array.
-/
import proofs.«170359_j56186762166614_2_alg».proof.Proof.Gen.KernelIdeal.Frame
import proofs.«170359_j56186762166614_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.AttnBlocks

open Cert.KernelIdeal Cert.KernelIdeal.Gen Cert.Mha Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The grid: point t is (batch t / 4, query block t % 4) -/

theorem N16 : cfg3.N = 16 := N_3

/-- The batch of a grid point. -/
def ptB (t : Fin cfg3.N) : Fin 4 := ⟨t.val / 4, by have h : t.val < 16 := lt_of_lt_of_eq t.isLt N16; omega⟩
/-- The query block of a grid point. -/
def ptQ (t : Fin cfg3.N) : Fin 4 := ⟨t.val % 4, Nat.mod_lt _ (by decide)⟩
/-- Row `r` of query block `qi`. -/
def qRow (qi : Fin 4) (r : Fin 512) : Fin 2048 := ⟨512 * qi.val + r.val, by have := qi.isLt; have := r.isLt; omega⟩

/-- The printed index maps, decided over the sixteen points. -/
theorem idx_facts : ∀ t : Fin cfg3.N,
    (win3_0.index t (0 : Fin 3) = t.val / 4 ∧ win3_0.index t (1 : Fin 3) = t.val % 4 ∧ win3_0.index t (2 : Fin 3) = 0)
    ∧ (win3_1.index t (0 : Fin 3) = t.val / 4 ∧ win3_1.index t (1 : Fin 3) = 0 ∧ win3_1.index t (2 : Fin 3) = 0)
    ∧ (win3_2.index t (0 : Fin 3) = t.val / 4 ∧ win3_2.index t (1 : Fin 3) = 0 ∧ win3_2.index t (2 : Fin 3) = 0)
    ∧ (win3_3.index t (0 : Fin 3) = t.val / 4 ∧ win3_3.index t (1 : Fin 3) = 0 ∧ win3_3.index t (2 : Fin 3) = 0)
    ∧ (win3_4.index t (0 : Fin 3) = t.val / 4 ∧ win3_4.index t (1 : Fin 3) = t.val % 4 ∧ win3_4.index t (2 : Fin 3) = 0) :=
  (by decide +kernel : ∀ t : Fin grid3.N, _)

/-! ## One block, over variables -/

/-- When the four input blocks are the arrays' rows the windows say, the body's output block is the attention stage's
    rows of the same place. -/
theorem block_eq
    (hout : ∀ (x0 : Vec Ideal S1x512x1024 .f32) (x1 x2 : Vec Ideal S1x2048x1024 .f32) (x3 : Vec Ideal S1x1x2048 .i32) (r : Fin 512) (c : Fin 1024),
      Gen.out3_4 (F := Ideal) x0 x1 x2 x3 (ix3 (0 : Fin 1) r c)
        = softSum (fun kk => Scalar.select (IntOp.cmpi .eq (x3 (ix3 (0 : Fin 1) (0 : Fin 1) kk)) 0#32) (⊥ : EReal)
              ((∑ e : Fin 64, x0 (ix3 (0 : Fin 1) r (col (headOf c) e)) * x1 (ix3 (0 : Fin 1) kk (col (headOf c) e))) * scale))
            (fun kk => x2 (ix3 (0 : Fin 1) kk c)))
    (x0 : Vec Ideal S1x512x1024 .f32) (x1 x2 : Vec Ideal S1x2048x1024 .f32) (x3 : Vec Ideal S1x1x2048 .i32)
    (q k v : A3.Idx → EReal) (msk : Mk.Idx → BitVec 32) (b qi : Fin 4)
    (h0 : ∀ (r : Fin 512) (e : Fin 1024), x0 (ix3 (0 : Fin 1) r e) = q (ix3 b (qRow qi r) e))
    (h1 : ∀ (kk : Fin 2048) (e : Fin 1024), x1 (ix3 (0 : Fin 1) kk e) = k (ix3 b kk e))
    (h2 : ∀ (kk : Fin 2048) (e : Fin 1024), x2 (ix3 (0 : Fin 1) kk e) = v (ix3 b kk e))
    (h3 : ∀ kk : Fin 2048, x3 (ix3 (0 : Fin 1) (0 : Fin 1) kk) = msk (ix3 b (0 : Fin 1) kk))
    (r : Fin 512) (c : Fin 1024) :
    Gen.out3_4 (F := Ideal) x0 x1 x2 x3 (ix3 (0 : Fin 1) r c) = attnF q k v msk (ix3 b (qRow qi r) c) := by
  rw [hout, attnF_apply]
  refine congrArg₂ softSum (funext fun kk => ?_) (funext fun kk => h2 kk c)
  unfold score
  rw [h3]
  refine congrArg (fun z => Scalar.select _ (⊥ : EReal) (z * scale)) (Finset.sum_congr rfl fun e _ => ?_)
  rw [h0, h1]

/-! ## Each input block, read where it sits in its array -/

section Blocks
variable (V : (c : Dev nD) → (b : Ref sig .tc) → Buf (Elt Ideal) ((c : Thread nD τ).loc b))

/-- The query block at point t: rows 512·(t % 4) … of batch t / 4. -/
theorem qblk_apply (c : Dev nD) (t : Fin cfg3.N) (r : Fin 512) (e : Fin 1024) :
    (iblk3 (F := Ideal) V c 0 t : Vec Ideal S1x512x1024 .f32) (ix3 (0 : Fin 1) r e)
      = (V c main_v2 : S4x2048x1024.Idx → EReal) (ix3 (ptB t) (qRow (ptQ t) r) e) := by
  obtain ⟨⟨a0, a1, a2⟩, -⟩ := idx_facts t
  unfold iblk3
  rw [View.read_apply]
  show V c main_v2 _ = V c main_v2 _
  congr 1
  funext a
  apply Fin.ext
  match a with
  | ⟨0, _⟩ => show win3_0.index t (0 : Fin 3) * 1 + 1 * 0 = t.val / 4; rw [a0]; omega
  | ⟨1, _⟩ => show win3_0.index t (1 : Fin 3) * 512 + 1 * r.val = 512 * (t.val % 4) + r.val; rw [a1]; omega
  | ⟨2, _⟩ => show win3_0.index t (2 : Fin 3) * 1024 + 1 * e.val = e.val; rw [a2]; omega

/-- The key block at point t: all of batch t / 4. -/
theorem kblk_apply (c : Dev nD) (t : Fin cfg3.N) (kk : Fin 2048) (e : Fin 1024) :
    (iblk3 (F := Ideal) V c 1 t : Vec Ideal S1x2048x1024 .f32) (ix3 (0 : Fin 1) kk e)
      = (V c main_v5 : S4x2048x1024.Idx → EReal) (ix3 (ptB t) kk e) := by
  obtain ⟨-, ⟨a0, a1, a2⟩, -⟩ := idx_facts t
  unfold iblk3
  rw [View.read_apply]
  show V c main_v5 _ = V c main_v5 _
  congr 1
  funext a
  apply Fin.ext
  match a with
  | ⟨0, _⟩ => show win3_1.index t (0 : Fin 3) * 1 + 1 * 0 = t.val / 4; rw [a0]; omega
  | ⟨1, _⟩ => show win3_1.index t (1 : Fin 3) * 2048 + 1 * kk.val = kk.val; rw [a1]; omega
  | ⟨2, _⟩ => show win3_1.index t (2 : Fin 3) * 1024 + 1 * e.val = e.val; rw [a2]; omega

/-- The value block at point t: all of batch t / 4. -/
theorem vblk_apply (c : Dev nD) (t : Fin cfg3.N) (kk : Fin 2048) (e : Fin 1024) :
    (iblk3 (F := Ideal) V c 2 t : Vec Ideal S1x2048x1024 .f32) (ix3 (0 : Fin 1) kk e)
      = (V c main_v8 : S4x2048x1024.Idx → EReal) (ix3 (ptB t) kk e) := by
  obtain ⟨-, -, ⟨a0, a1, a2⟩, -⟩ := idx_facts t
  unfold iblk3
  rw [View.read_apply]
  show V c main_v8 _ = V c main_v8 _
  congr 1
  funext a
  apply Fin.ext
  match a with
  | ⟨0, _⟩ => show win3_2.index t (0 : Fin 3) * 1 + 1 * 0 = t.val / 4; rw [a0]; omega
  | ⟨1, _⟩ => show win3_2.index t (1 : Fin 3) * 2048 + 1 * kk.val = kk.val; rw [a1]; omega
  | ⟨2, _⟩ => show win3_2.index t (2 : Fin 3) * 1024 + 1 * e.val = e.val; rw [a2]; omega

/-- The mask block at point t: the mask words of batch t / 4. -/
theorem mblk_apply (c : Dev nD) (t : Fin cfg3.N) (kk : Fin 2048) :
    (iblk3 (F := Ideal) V c 3 t : Vec Ideal S1x1x2048 .i32) (ix3 (0 : Fin 1) (0 : Fin 1) kk)
      = (V c main_arg3 : S4x1x2048.Idx → BitVec 32) (ix3 (ptB t) (0 : Fin 1) kk) := by
  obtain ⟨-, -, -, ⟨a0, a1, a2⟩, -⟩ := idx_facts t
  unfold iblk3
  rw [View.read_apply]
  show V c main_arg3 _ = V c main_arg3 _
  congr 1
  funext a
  apply Fin.ext
  match a with
  | ⟨0, _⟩ => show win3_3.index t (0 : Fin 3) * 1 + 1 * 0 = t.val / 4; rw [a0]; omega
  | ⟨1, _⟩ => show win3_3.index t (1 : Fin 3) * 1 + 1 * 0 = 0; rw [a1]
  | ⟨2, _⟩ => show win3_3.index t (2 : Fin 3) * 2048 + 1 * kk.val = kk.val; rw [a2]; omega

/-! ## What a point writes back -/

/-- Where the output block's element (0, r, cc) at point t sits in the output array. -/
theorem oblk_emb (t : Fin cfg3.N) (r : Fin 512) (cc : Fin 1024) :
    ((cfg3.win 4).blk t).view.emb (ix3 (0 : Fin 1) r cc) = ix3 (ptB t) (qRow (ptQ t) r) cc := by
  obtain ⟨-, -, -, -, ⟨a0, a1, a2⟩⟩ := idx_facts t
  funext a
  apply Fin.ext
  match a with
  | ⟨0, _⟩ => show win3_4.index t (0 : Fin 3) * 1 + 1 * 0 = t.val / 4; rw [a0]; omega
  | ⟨1, _⟩ => show win3_4.index t (1 : Fin 3) * 512 + 1 * r.val = 512 * (t.val % 4) + r.val; rw [a1]; omega
  | ⟨2, _⟩ => show win3_4.index t (2 : Fin 3) * 1024 + 1 * cc.val = cc.val; rw [a2]; omega

/-- What point t writes back is its block of the attention stage of the arrays the region finds. -/
theorem flushed_eq
    (hout : ∀ (x0 : Vec Ideal S1x512x1024 .f32) (x1 x2 : Vec Ideal S1x2048x1024 .f32) (x3 : Vec Ideal S1x1x2048 .i32) (r : Fin 512) (c : Fin 1024),
      Gen.out3_4 (F := Ideal) x0 x1 x2 x3 (ix3 (0 : Fin 1) r c)
        = softSum (fun kk => Scalar.select (IntOp.cmpi .eq (x3 (ix3 (0 : Fin 1) (0 : Fin 1) kk)) 0#32) (⊥ : EReal)
              ((∑ e : Fin 64, x0 (ix3 (0 : Fin 1) r (col (headOf c) e)) * x1 (ix3 (0 : Fin 1) kk (col (headOf c) e))) * scale))
            (fun kk => x2 (ix3 (0 : Fin 1) kk c)))
    (c : Dev nD) (t : Fin cfg3.N) :
    (dat3 (F := Ideal) V c).flushed 4 t
      = ((cfg3.win 4).blk t).view.read (Elt Ideal)
          (attnF (V c main_v2) (V c main_v5) (V c main_v8) (V c main_arg3)) := by
  show (cfg3.win 4).cut (grid3.coords t) ((dat3 V c).after 4 t) = _
  rw [after3_4]
  funext y
  obtain ⟨z, r, cc, rfl⟩ : ∃ (z : Fin 1) (r : Fin 512) (cc : Fin 1024), y = ix3 z r cc := ⟨y 0, y 1, y 2, eq_ix3 y⟩
  obtain rfl : z = 0 := Subsingleton.elim z 0
  rw [View.read_apply]
  show out3_4 (F := Ideal) (iblk3 V c 0 t) (iblk3 V c 1 t) (iblk3 V c 2 t) (iblk3 V c 3 t) (ix3 (0 : Fin 1) r cc)
    = attnF (V c main_v2) (V c main_v5) (V c main_v8) (V c main_arg3) (((cfg3.win 4).blk t).view.emb (ix3 (0 : Fin 1) r cc))
  rw [oblk_emb]
  exact block_eq hout _ _ _ _ _ _ _ _ (ptB t) (ptQ t) (qblk_apply V c t) (kblk_apply V c t) (vblk_apply V c t)
    (mblk_apply V c t) r cc

end Blocks

/-! ## The blocks cover the output array -/

/-- An index of the output array is in point t's block iff each coordinate is in the block's range on its axis. -/
theorem mem_blk (t : Fin cfg3.N) (i : S4x2048x1024.Idx) :
    i ∈ ((cfg3.win 4).blk t).view.set ↔ ∀ a : Fin 3, win3_4.index t a * S1x512x1024.size a ≤ (i a).val
      ∧ (i a).val < win3_4.index t a * S1x512x1024.size a + S1x512x1024.size a := by
  show i ∈ ((View.whole main_v9).slice (win3_4.rect t)).set ↔ _
  rw [View.set_slice_whole, Rect.mem_set_unit]
  exact Iff.rfl

/-- Row r of batch b is in the block of point 4·b + r / 512. -/
theorem cover (i : S4x2048x1024.Idx) :
    ∃ t : Fin cfg3.N, (cfg3.win 4).flush t = true ∧ i ∈ ((cfg3.win 4).blk t).view.set := by
  have h0 : (i 0).val < 4 := (i 0).isLt
  have h1 : (i 1).val < 2048 := (i 1).isLt
  have h2 : (i 2).val < 1024 := (i 2).isLt
  obtain ⟨t, ht⟩ : ∃ t : Fin cfg3.N, t.val = 4 * (i 0).val + (i 1).val / 512 :=
    ⟨⟨4 * (i 0).val + (i 1).val / 512, by rw [N16]; omega⟩, rfl⟩
  obtain ⟨-, -, -, -, ⟨a0, a1, a2⟩⟩ := idx_facts t
  refine ⟨t, flush3_4 t, ?_⟩
  rw [mem_blk]
  intro a
  match a with
  | ⟨0, _⟩ =>
    show win3_4.index t (0 : Fin 3) * 1 ≤ (i 0).val ∧ (i 0).val < win3_4.index t (0 : Fin 3) * 1 + 1
    rw [a0, ht]; omega
  | ⟨1, _⟩ =>
    show win3_4.index t (1 : Fin 3) * 512 ≤ (i 1).val ∧ (i 1).val < win3_4.index t (1 : Fin 3) * 512 + 512
    rw [a1, ht]; omega
  | ⟨2, _⟩ =>
    show win3_4.index t (2 : Fin 3) * 1024 ≤ (i 2).val ∧ (i 2).val < win3_4.index t (2 : Fin 3) * 1024 + 1024
    rw [a2]; omega

/-! ## The output array after the region -/

/-- After the attention region its output array holds the attention stage of the arrays the region found. -/
theorem attn_final_of
    (hout : ∀ (x0 : Vec Ideal S1x512x1024 .f32) (x1 x2 : Vec Ideal S1x2048x1024 .f32) (x3 : Vec Ideal S1x1x2048 .i32) (r : Fin 512) (c : Fin 1024),
      Gen.out3_4 (F := Ideal) x0 x1 x2 x3 (ix3 (0 : Fin 1) r c)
        = softSum (fun kk => Scalar.select (IntOp.cmpi .eq (x3 (ix3 (0 : Fin 1) (0 : Fin 1) kk)) 0#32) (⊥ : EReal)
              ((∑ e : Fin 64, x0 (ix3 (0 : Fin 1) r (col (headOf c) e)) * x1 (ix3 (0 : Fin 1) kk (col (headOf c) e))) * scale))
            (fun kk => x2 (ix3 (0 : Fin 1) kk c)))
    (V : (c : Dev nD) → (b : Ref sig .tc) → Buf (Elt Ideal) ((c : Thread nD τ).loc b)) (c : Dev nD) :
    (Gen.dat3 (F := Ideal) V c).arrAt 4 cfg3.N = attnF (V c main_v2) (V c main_v5) (V c main_v8) (V c main_arg3) :=
  (dat3 (F := Ideal) V c).arrAt_eq_of_cover 4 (attnF (V c main_v2) (V c main_v5) (V c main_v8) (V c main_arg3))
    (fun t _ => flushed_eq V hout c t) cover

end Cert.KernelIdeal.AttnBlocks

end
-- ==== Proof.RefValue.lean ====
/-
  The reference program's result as the specification's function: each of its four linear layers is the
  specification's linear layer on flattened rows, and the chain between them is the specification's attention stage.
-/
import proofs.«170359_j56186762166614_2_alg».proof.Proof.Gen.ReferenceIdeal.Read
import proofs.«170359_j56186762166614_2_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Read Cert.Mha Idealize.ShloMosaic Idealize.ShloMosaic.ValueIdx

/-! ## Flattening rows -/

/-- Row `2048·b + r` of the flattened array. -/
def rowOf (b : Fin 4) (r : Fin 2048) : Fin 8192 := ⟨2048 * b.val + r.val, by have := b.isLt; have := r.isLt; omega⟩

theorem unflat_apply (y : A2.Idx → EReal) (b : Fin 4) (r : Fin 2048) (c : Fin 1024) :
    unflat y (ix3 b r c) = y (ix2 (rowOf b r) c) := by
  unfold unflat
  refine shapeCast_apply y casts23 (ix3 b r c) (ix2 (rowOf b r) c) ?_
  rw [Shape.rowMajor_val_three, Shape.rowMajor_val_two]
  show (2048 * b.val + r.val) * 1024 + c.val = (b.val * 2048 + r.val) * 1024 + c.val
  omega

theorem flat_apply (x : A3.Idx → EReal) (b : Fin 4) (r : Fin 2048) (k : Fin 1024) :
    flat x (ix2 (rowOf b r) k) = x (ix3 b r k) := by
  unfold flat
  refine shapeCast_apply x casts32 (ix2 (rowOf b r) k) (ix3 b r k) ?_
  rw [Shape.rowMajor_val_three, Shape.rowMajor_val_two]
  show (b.val * 2048 + r.val) * 1024 + k.val = (2048 * b.val + r.val) * 1024 + k.val
  omega

/-- The specification's linear layer read at (b, r, c). -/
theorem unflat_linF_apply (x : A3.Idx → EReal) (w : Wt.Idx → EReal) (bb : Bs.Idx → EReal)
    (b : Fin 4) (r : Fin 2048) (c : Fin 1024) :
    unflat (linF (flat x) w bb) (ix3 b r c) = (∑ k : Fin 1024, x (ix3 b r k) * w (ix2 c k)) + bb (ix1 c) := by
  rw [unflat_apply, linF_apply]
  refine congrArg (· + bb (ix1 c)) (Finset.sum_congr rfl fun k _ => ?_)
  rw [flat_apply]

/-! ## The linear layers -/

/-- The reference's linear layer (a contraction of the last axis with the weight's second axis, plus the broadcast
    bias) is the specification's. -/
theorem lin_eq (x : A3.Idx → EReal) (w : Wt.Idx → EReal) (bb : Bs.Idx → EReal) :
    val_main_v3 (F := Ideal) x w bb = unflat (linF (flat x) w bb) := by
  funext i
  obtain ⟨b, r, c, rfl⟩ : ∃ (b : Fin 4) (r : Fin 2048) (c : Fin 1024), i = ix3 b r c := ⟨i 0, i 1, i 2, eq_ix3 i⟩
  rw [unflat_linF_apply, val_main_v3_apply, val_main_v0_apply, val_main_v2_apply, val_main_v1_apply]
  show (∑ k : Fin 1024, x (lidx_main_v0 (ix3 b r c) k) * w (ridx_main_v0 (ix3 b r c) k))
    + bb (idx_main_v1 (idx_main_v2 (ix3 b r c))) = _
  have e1 : ∀ k : Fin 1024, lidx_main_v0 (ix3 b r c) k = ix3 b r k := fun k => funext fun a => by
    match a with
    | ⟨0, _⟩ => rfl
    | ⟨1, _⟩ => rfl
    | ⟨2, _⟩ => rfl
  have e2 : ∀ k : Fin 1024, ridx_main_v0 (ix3 b r c) k = ix2 c k := fun k => funext fun a => by
    match a with
    | ⟨0, _⟩ => rfl
    | ⟨1, _⟩ => rfl
  have e3 : idx_main_v1 (idx_main_v2 (ix3 b r c)) = ix1 c := funext fun a => by
    match a with
    | ⟨0, _⟩ => rfl
  rw [e3]
  refine congrArg (· + bb (ix1 c)) (Finset.sum_congr rfl fun k _ => ?_)
  rw [e1, e2]

/-! ## Heads: the reshape to [4, 2048, 16, 64] and the transpose to [4, 16, 2048, 64] -/

theorem headIdx (b : Fin 4) (h : Fin 16) (r : Fin 2048) (e : Fin 64) :
    idx_main_v4 (idx_main_v5 (ix4 b h r e)) = ix3 b r (col h e) := by
  have hb := b.isLt; have hh := h.isLt; have hr := r.isLt; have he := e.isLt
  funext a
  apply Fin.ext
  match a with
  | ⟨0, _⟩ =>
    show (((b.val * 2048 + r.val) * 16 + h.val) * 64 + e.val) / 2097152 = b.val
    omega
  | ⟨1, _⟩ =>
    show (((b.val * 2048 + r.val) * 16 + h.val) * 64 + e.val) / 1024 % 2048 = r.val
    omega
  | ⟨2, _⟩ =>
    show (((b.val * 2048 + r.val) * 16 + h.val) * 64 + e.val) % 1024 = 64 * h.val + e.val
    omega

/-- Queries by head. -/
theorem q_head (x : A3.Idx → EReal) (w : Wt.Idx → EReal) (bb : Bs.Idx → EReal)
    (b : Fin 4) (h : Fin 16) (r : Fin 2048) (e : Fin 64) :
    val_main_v5 (F := Ideal) x w bb (ix4 b h r e) = val_main_v3 (F := Ideal) x w bb (ix3 b r (col h e)) := by
  rw [val_main_v5_apply, val_main_v4_apply]
  exact congrArg _ (headIdx b h r e)

/-- Keys by head. -/
theorem k_head (x : A3.Idx → EReal) (w : Wt.Idx → EReal) (bb : Bs.Idx → EReal)
    (b : Fin 4) (h : Fin 16) (r : Fin 2048) (e : Fin 64) :
    val_main_v11 (F := Ideal) x w bb (ix4 b h r e) = val_main_v9 (F := Ideal) x w bb (ix3 b r (col h e)) := by
  rw [val_main_v11_apply, val_main_v10_apply]
  exact congrArg _ (headIdx b h r e)

/-- Values by head. -/
theorem v_head (x : A3.Idx → EReal) (w : Wt.Idx → EReal) (bb : Bs.Idx → EReal)
    (b : Fin 4) (h : Fin 16) (r : Fin 2048) (e : Fin 64) :
    val_main_v17 (F := Ideal) x w bb (ix4 b h r e) = val_main_v15 (F := Ideal) x w bb (ix3 b r (col h e)) := by
  rw [val_main_v17_apply, val_main_v16_apply]
  exact congrArg _ (headIdx b h r e)

/-- The way back: column `c` of row (b, r) is entry `c % 64` of head `c / 64`. -/
theorem mergeIdx (b : Fin 4) (r : Fin 2048) (c : Fin 1024) :
    idx_main_v38 (idx_main_v39 (ix3 b r c)) = ix4 b (headOf c) r (inHead c) := by
  have hb := b.isLt; have hr := r.isLt; have hc := c.isLt
  funext a
  apply Fin.ext
  match a with
  | ⟨0, _⟩ =>
    show ((b.val * 2048 + r.val) * 1024 + c.val) / 2097152 = b.val
    omega
  | ⟨1, _⟩ =>
    show ((b.val * 2048 + r.val) * 1024 + c.val) / 64 % 16 = c.val / 64
    omega
  | ⟨2, _⟩ =>
    show ((b.val * 2048 + r.val) * 1024 + c.val) / 1024 % 2048 = r.val
    omega
  | ⟨3, _⟩ =>
    show ((b.val * 2048 + r.val) * 1024 + c.val) % 64 = c.val % 64
    omega

/-! ## Scores -/

/-- The masked, scaled scores of a query row against a key row. -/
theorem score_eq (x0 x1 : A3.Idx → EReal) (x3 : Mk.Idx → BitVec 32) (x4 : Wt.Idx → EReal) (x5 : Bs.Idx → EReal)
    (x6 : Wt.Idx → EReal) (x7 : Bs.Idx → EReal) (b : Fin 4) (h : Fin 16) (r kk : Fin 2048) :
    val_main_v25 (F := Ideal) x0 x1 x3 x4 x5 x6 x7 (ix4 b h r kk)
      = score (val_main_v3 (F := Ideal) x0 x4 x5) (val_main_v9 (F := Ideal) x1 x6 x7) x3 b h r kk := by
  rw [val_main_v25_apply, val_main_call0_v0_apply, val_main_v24_apply, val_main_v22_apply, val_main_v23_apply,
    val_main_c_apply, val_main_call0_v1_apply, val_main_cst_0_apply, val_main_v21_apply, val_main_v20_apply,
    val_main_v19_apply, val_main_cst_apply, val_main_v18_apply]
  unfold score
  have em : idx_main_v22 (idx_main_call0_v0 (ix4 b h r kk)) = ix3 b (0 : Fin 1) kk := funext fun a => by
    match a with
    | ⟨0, _⟩ => rfl
    | ⟨1, _⟩ => rfl
    | ⟨2, _⟩ => rfl
  rw [em]
  have es : (∑ k : Fin 64, val_main_v5 (F := Ideal) x0 x4 x5 (lidx_main_v18 (ix4 b h r kk) k)
        * val_main_v11 (F := Ideal) x1 x6 x7 (ridx_main_v18 (ix4 b h r kk) k))
      = ∑ e : Fin 64, val_main_v3 (F := Ideal) x0 x4 x5 (ix3 b r (col h e))
        * val_main_v9 (F := Ideal) x1 x6 x7 (ix3 b kk (col h e)) :=
    Finset.sum_congr rfl fun e _ => by
      have e1 : lidx_main_v18 (ix4 b h r kk) e = ix4 b h r e := funext fun a => by
        match a with
        | ⟨0, _⟩ => rfl
        | ⟨1, _⟩ => rfl
        | ⟨2, _⟩ => rfl
        | ⟨3, _⟩ => rfl
      have e2 : ridx_main_v18 (ix4 b h r kk) e = ix4 b h kk e := funext fun a => by
        match a with
        | ⟨0, _⟩ => rfl
        | ⟨1, _⟩ => rfl
        | ⟨2, _⟩ => rfl
        | ⟨3, _⟩ => rfl
      rw [e1, e2, q_head, k_head]
  rw [es]
  show Scalar.select _ (Ideal.ofBits .f32 0xFF800000#32)
    (Ideal.div _ (Ideal.sqrt (Ideal.ofBits .f32 0x44800000#32))) = _
  rw [ofBits_ninf, div_sqrt_1024]

/-! ## The row maximum -/

set_option maxRecDepth 16384 in
/-- The reduction over the key axis: a fold of `max` from -∞ over the row. -/
theorem reduce_max_eq (x0 x1 : A3.Idx → EReal) (x3 : Mk.Idx → BitVec 32) (x4 : Wt.Idx → EReal) (x5 : Bs.Idx → EReal)
    (x6 : Wt.Idx → EReal) (x7 : Bs.Idx → EReal) (b : Fin 4) (h : Fin 16) (r : Fin 2048) :
    val_main_v26 (F := Ideal) x0 x1 x3 x4 x5 x6 x7 (ix3 b h r)
      = (Finset.univ : Finset (Fin 2048)).fold max ⊥
          (fun kk => val_main_v25 (F := Ideal) x0 x1 x3 x4 x5 x6 x7 (ix4 b h r kk)) := by
  have hR : S4x16x2048x2048.Reduces [3] S4x16x2048 := by decide
  unfold val_main_v26
  generalize val_main_v25 (F := Ideal) x0 x1 x3 x4 x5 x6 x7 = y
  have key := Host.reduce_eq_fold_single (α := EReal) (s := S4x16x2048x2048) (t := S4x16x2048) (a := 3) (u := S_)
    (FloatOps.maximumf (F := Ideal) (φ := .f32)) y (val_main_cst_1 (F := Ideal))
    Facts₀.reducesTo_S4x16x2048x2048_S4x16x2048_d3 hR Facts₀.h_S_ (ix3 b h r)
  refine key.trans ?_
  have e0 : val_main_cst_1 (F := Ideal) (Shape.Idx.first Facts₀.h_S_) = (⊥ : EReal) := ofBits_ninf
  rw [e0]
  have ef : (y ∘ hR.lift (ix3 b h r)) = fun kk : Fin 2048 => y (ix4 b h r kk) := funext fun kk =>
    congrArg y (funext fun c => Fin.ext (by
      rw [hR.lift_val]
      unfold Shape.Reduces.liftVal
      match c with
      | ⟨0, _⟩ => rfl
      | ⟨1, _⟩ => rfl
      | ⟨2, _⟩ => rfl
      | ⟨3, _⟩ => rfl))
  rw [ef]
  rfl

/-- The row maximum of the scores. -/
theorem rowmax_eq (x0 x1 : A3.Idx → EReal) (x3 : Mk.Idx → BitVec 32) (x4 : Wt.Idx → EReal) (x5 : Bs.Idx → EReal)
    (x6 : Wt.Idx → EReal) (x7 : Bs.Idx → EReal) (b : Fin 4) (h : Fin 16) (r : Fin 2048) :
    val_main_v28 (F := Ideal) x0 x1 x3 x4 x5 x6 x7 (ix3 b h r)
      = (Finset.univ : Finset (Fin 2048)).fold max ⊥
          (fun kk => score (val_main_v3 (F := Ideal) x0 x4 x5) (val_main_v9 (F := Ideal) x1 x6 x7) x3 b h r kk) := by
  rw [val_main_v28_apply, val_main_v27_apply, val_main_cst_2_apply, reduce_max_eq]
  show max (Ideal.ofBits .f32 0xFF800000#32) _ = _
  rw [ofBits_ninf, max_eq_right bot_le]
  exact congrArg (fun f : Fin 2048 → EReal => (Finset.univ : Finset (Fin 2048)).fold max ⊥ f)
    (funext fun kk => score_eq x0 x1 x3 x4 x5 x6 x7 b h r kk)

/-! ## Exponentials, their sum, the weights -/

theorem exp_eq (x0 x1 : A3.Idx → EReal) (x3 : Mk.Idx → BitVec 32) (x4 : Wt.Idx → EReal) (x5 : Bs.Idx → EReal)
    (x6 : Wt.Idx → EReal) (x7 : Bs.Idx → EReal) (b : Fin 4) (h : Fin 16) (r kk : Fin 2048) :
    val_main_v32 (F := Ideal) x0 x1 x3 x4 x5 x6 x7 (ix4 b h r kk)
      = Ideal.exp (score (val_main_v3 (F := Ideal) x0 x4 x5) (val_main_v9 (F := Ideal) x1 x6 x7) x3 b h r kk
          - (Finset.univ : Finset (Fin 2048)).fold max ⊥
              (fun k' => score (val_main_v3 (F := Ideal) x0 x4 x5) (val_main_v9 (F := Ideal) x1 x6 x7) x3 b h r k')) := by
  rw [val_main_v32_apply, val_main_v31_apply, val_main_v30_apply, val_main_v29_apply]
  have ei : idx_main_v29 (idx_main_v30 (ix4 b h r kk)) = ix3 b h r := funext fun a => by
    match a with
    | ⟨0, _⟩ => rfl
    | ⟨1, _⟩ => rfl
    | ⟨2, _⟩ => rfl
  rw [ei, score_eq, rowmax_eq]
  rfl

theorem sum_eq (x0 x1 : A3.Idx → EReal) (x3 : Mk.Idx → BitVec 32) (x4 : Wt.Idx → EReal) (x5 : Bs.Idx → EReal)
    (x6 : Wt.Idx → EReal) (x7 : Bs.Idx → EReal) (b : Fin 4) (h : Fin 16) (r : Fin 2048) :
    val_main_v33 (F := Ideal) x0 x1 x3 x4 x5 x6 x7 (ix3 b h r)
      = ∑ k' : Fin 2048,
          Ideal.exp (score (val_main_v3 (F := Ideal) x0 x4 x5) (val_main_v9 (F := Ideal) x1 x6 x7) x3 b h r k'
            - (Finset.univ : Finset (Fin 2048)).fold max ⊥
                (fun k'' => score (val_main_v3 (F := Ideal) x0 x4 x5) (val_main_v9 (F := Ideal) x1 x6 x7) x3 b h r k'')) := by
  rw [val_main_v33_apply, val_main_cst_3_apply]
  show Ideal.ofBits .f32 0x00000000#32 + _ = _
  rw [Ideal.ofBits_zero_f32, zero_add]
  refine Finset.sum_congr rfl fun k _ => ?_
  have ei : idx_main_v33 (ix3 b h r) k = ix4 b h r k := funext fun a => by
    match a with
    | ⟨0, _⟩ => rfl
    | ⟨1, _⟩ => rfl
    | ⟨2, _⟩ => rfl
    | ⟨3, _⟩ => rfl
  rw [ei, exp_eq]

theorem weight_eq (x0 x1 : A3.Idx → EReal) (x3 : Mk.Idx → BitVec 32) (x4 : Wt.Idx → EReal) (x5 : Bs.Idx → EReal)
    (x6 : Wt.Idx → EReal) (x7 : Bs.Idx → EReal) (b : Fin 4) (h : Fin 16) (r kk : Fin 2048) :
    val_main_v36 (F := Ideal) x0 x1 x3 x4 x5 x6 x7 (ix4 b h r kk)
      = Ideal.div
          (Ideal.exp (score (val_main_v3 (F := Ideal) x0 x4 x5) (val_main_v9 (F := Ideal) x1 x6 x7) x3 b h r kk
            - (Finset.univ : Finset (Fin 2048)).fold max ⊥
                (fun k' => score (val_main_v3 (F := Ideal) x0 x4 x5) (val_main_v9 (F := Ideal) x1 x6 x7) x3 b h r k')))
          (∑ k' : Fin 2048,
            Ideal.exp (score (val_main_v3 (F := Ideal) x0 x4 x5) (val_main_v9 (F := Ideal) x1 x6 x7) x3 b h r k'
              - (Finset.univ : Finset (Fin 2048)).fold max ⊥
                  (fun k'' => score (val_main_v3 (F := Ideal) x0 x4 x5) (val_main_v9 (F := Ideal) x1 x6 x7) x3 b h r k''))) := by
  rw [val_main_v36_apply, val_main_v35_apply, val_main_v34_apply]
  have ei : idx_main_v34 (idx_main_v35 (ix4 b h r kk)) = ix3 b h r := funext fun a => by
    match a with
    | ⟨0, _⟩ => rfl
    | ⟨1, _⟩ => rfl
    | ⟨2, _⟩ => rfl
  rw [ei, exp_eq, sum_eq]
  rfl

/-! ## The weighted sum of the values, and the heads side by side -/

theorem out_eq (x0 x1 x2 : A3.Idx → EReal) (x3 : Mk.Idx → BitVec 32) (x4 : Wt.Idx → EReal) (x5 : Bs.Idx → EReal)
    (x6 : Wt.Idx → EReal) (x7 : Bs.Idx → EReal) (x8 : Wt.Idx → EReal) (x9 : Bs.Idx → EReal)
    (b : Fin 4) (h : Fin 16) (r : Fin 2048) (d : Fin 64) :
    val_main_v37 (F := Ideal) x0 x1 x2 x3 x4 x5 x6 x7 x8 x9 (ix4 b h r d)
      = softSum (fun kk => score (val_main_v3 (F := Ideal) x0 x4 x5) (val_main_v9 (F := Ideal) x1 x6 x7) x3 b h r kk)
          (fun kk => val_main_v15 (F := Ideal) x2 x8 x9 (ix3 b kk (col h d))) := by
  rw [val_main_v37_apply]
  unfold softSum
  refine Finset.sum_congr rfl fun k _ => ?_
  have e1 : lidx_main_v37 (ix4 b h r d) k = ix4 b h r k := funext fun a => by
    match a with
    | ⟨0, _⟩ => rfl
    | ⟨1, _⟩ => rfl
    | ⟨2, _⟩ => rfl
    | ⟨3, _⟩ => rfl
  have e2 : ridx_main_v37 (ix4 b h r d) k = ix4 b h k d := funext fun a => by
    match a with
    | ⟨0, _⟩ => rfl
    | ⟨1, _⟩ => rfl
    | ⟨2, _⟩ => rfl
    | ⟨3, _⟩ => rfl
  rw [e1, e2, weight_eq, v_head]

/-- The chain between the linear layers is the specification's attention stage. -/
theorem attn_eq (x0 x1 x2 : A3.Idx → EReal) (x3 : Mk.Idx → BitVec 32) (x4 : Wt.Idx → EReal) (x5 : Bs.Idx → EReal)
    (x6 : Wt.Idx → EReal) (x7 : Bs.Idx → EReal) (x8 : Wt.Idx → EReal) (x9 : Bs.Idx → EReal) :
    val_main_v39 (F := Ideal) x0 x1 x2 x3 x4 x5 x6 x7 x8 x9
      = attnF (val_main_v3 (F := Ideal) x0 x4 x5) (val_main_v9 (F := Ideal) x1 x6 x7)
          (val_main_v15 (F := Ideal) x2 x8 x9) x3 := by
  funext i
  obtain ⟨b, r, c, rfl⟩ : ∃ (b : Fin 4) (r : Fin 2048) (c : Fin 1024), i = ix3 b r c := ⟨i 0, i 1, i 2, eq_ix3 i⟩
  rw [attnF_apply, val_main_v39_apply, val_main_v38_apply, mergeIdx, out_eq, col_headOf_inHead]

/-! ## The whole reference -/

/-- The second and third linear layers have the first one's body. -/
theorem lin_eq_k (x : A3.Idx → EReal) (w : Wt.Idx → EReal) (bb : Bs.Idx → EReal) :
    val_main_v9 (F := Ideal) x w bb = unflat (linF (flat x) w bb) := lin_eq x w bb

theorem lin_eq_v (x : A3.Idx → EReal) (w : Wt.Idx → EReal) (bb : Bs.Idx → EReal) :
    val_main_v15 (F := Ideal) x w bb = unflat (linF (flat x) w bb) := lin_eq x w bb

/-- The reference program's result is the specification's function of its twelve arguments. -/
theorem ref_eq (x0 x1 x2 : (⟨S4x2048x1024, .f32⟩ : BufTy).Contents (Elt Ideal))
    (x3 : (⟨S4x1x2048, .i32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal))
    (x10 : (⟨S1024x1024, .f32⟩ : BufTy).Contents (Elt Ideal)) (x11 : (⟨S1024, .f32⟩ : BufTy).Contents (Elt Ideal)) :
    Read.val_main_v43 (F := Ideal) x0 x1 x2 x3 x4 x5 x6 x7 x8 x9 x10 x11
      = mhaF x0 x1 x2 x3 x4 x5 x6 x7 x8 x9 x10 x11 := by
  have hlast : Read.val_main_v43 (F := Ideal) x0 x1 x2 x3 x4 x5 x6 x7 x8 x9 x10 x11
      = val_main_v3 (F := Ideal) (val_main_v39 (F := Ideal) x0 x1 x2 x3 x4 x5 x6 x7 x8 x9) x10 x11 := rfl
  rw [hlast, lin_eq, attn_eq, lin_eq, lin_eq_k, lin_eq_v]
  rfl

end Cert.ReferenceIdeal.RefValue

end
-- ==== Proof.lean ====
/-
  Multi-head attention: the kernel against its jnp reference, over the extended reals.

  Both programs compute, of queries, keys and values [4, 2048, 1024] and a mask [4, 1, 2048]: three linear layers; per
  head (16 heads of 64 columns) the scores of every query row against every key row, scaled by 1/32 and sent to -∞ at
  the key positions whose mask word is zero; the softmax of each row of scores (exponentials of the differences to the
  row's maximum, divided by their sum); the weighted sums of the value rows; the heads' results side by side; a last
  linear layer. The kernel does it in five regions among reshapes (four linear layers on the flattened [8192, 1024]
  rows, one attention region looping over the heads inside a block of 512 query rows); the reference in one line of
  host operations on [4, 16, 2048, ·] arrays.

  The two differ in three places, each an identity of the extended reals: the kernel multiplies the scores by the
  word 1/32 where the reference divides them by the square root of the word 1024 (√1024 = 32, and dividing by 32 is
  multiplying by 1/32 on every extended real); the kernel adds a row that is -∞ at the masked positions and 0
  elsewhere where the reference selects between -∞ and the score (x + -∞ = -∞ and x + 0 = x for every x); and the
  reference takes one more maximum with -∞ and starts its sums from the word 0. Everything else is the same
  operation on the same operands in another arrangement, so no finiteness of the inputs is used.

  Modules: Spec (the mathematics, once), LinRegion and AttnRegion / AttnBlocks (what each region of the kernel leaves
  in its output array), KernelRun (the kernel's run with its result read back through the program), RefValue (the
  reference's result), and here the five claims.
-/
import proofs.«170359_j56186762166614_2_alg».proof.Defs
import proofs.«170359_j56186762166614_2_alg».proof.Proof.Gen.Kernel
import proofs.«170359_j56186762166614_2_alg».proof.Proof.Gen.Kernel.Skeleton
import proofs.«170359_j56186762166614_2_alg».proof.Proof.Gen.Kernel.Launch
import proofs.«170359_j56186762166614_2_alg».proof.Proof.Gen.Kernel.Points
import proofs.«170359_j56186762166614_2_alg».proof.Proof.Gen.Kernel.Frame
import proofs.«170359_j56186762166614_2_alg».proof.Proof.Gen.KernelIdeal
import proofs.«170359_j56186762166614_2_alg».proof.Proof.Gen.KernelIdeal.Skeleton
import proofs.«170359_j56186762166614_2_alg».proof.Proof.Gen.KernelIdeal.Launch
import proofs.«170359_j56186762166614_2_alg».proof.Proof.Gen.KernelIdeal.Points
import proofs.«170359_j56186762166614_2_alg».proof.Proof.Gen.KernelIdeal.Frame
import proofs.«170359_j56186762166614_2_alg».proof.Proof.Gen.ReferenceIdeal
import proofs.«170359_j56186762166614_2_alg».proof.Proof.Gen.Pre_finite_inputs
import proofs.«170359_j56186762166614_2_alg».proof.Proof.Gen.ReferenceIdeal.Run
import proofs.«170359_j56186762166614_2_alg».proof.Proof.Gen.ReferenceIdeal.Read
import proofs.«170359_j56186762166614_2_alg».proof.Proof.Spec
import proofs.«170359_j56186762166614_2_alg».proof.Proof.KernelRun
import proofs.«170359_j56186762166614_2_alg».proof.Proof.LinRegion
import proofs.«170359_j56186762166614_2_alg».proof.Proof.AttnRegion
import proofs.«170359_j56186762166614_2_alg».proof.Proof.AttnBlocks
import proofs.«170359_j56186762166614_2_alg».proof.Proof.RefValue
import Idealize.ShloMosaic.Adequacy
import Idealize.ShloMosaic.Init

noncomputable section

namespace Cert.Proof

open Idealize.ShloMosaic Idealize.ShloMosaic.TcCoe Idealize.SL.Sem Cert.Mha

/-- The word-level kernel runs and leaves its arguments as launched. -/
theorem frame_p : Cert.frame_Kernel := fun m ρ _ => Cert.Kernel.Gen.frame m ρ

/-- So does the idealized kernel. -/
theorem frame_pi : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- What the five regions leave in their output arrays: four linear layers and the attention stage. -/
theorem regionValues : Cert.KernelIdeal.Gen.RegionValues where
  lin0 := Cert.KernelIdeal.LinValue.lin_final0
  lin1 := Cert.KernelIdeal.LinValue.lin_final1
  lin2 := Cert.KernelIdeal.LinValue.lin_final2
  attn := Cert.KernelIdeal.AttnBlocks.attn_final_of Cert.KernelIdeal.AttnValue.out3_4_apply
  lin4 := Cert.KernelIdeal.LinValue.lin_final4

/-- Both programs end with the layer of the arguments in their result: the kernel's result buffer read back through
    its five regions, the reference's composed term read one operation at a time, from arguments that agree. -/
theorem algebraic : Cert.algebraic_KernelIdeal_ReferenceIdeal := by
  intro m ρ m' ρ' _ hagree
  refine ⟨_, Cert.KernelIdeal.Gen.run_value regionValues m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v43_eq, Cert.ReferenceIdeal.RefValue.ref_eq,
    e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
